-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x500 : Shape := ⟨2, ![1024, 500]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x500 : S_.BroadcastsInDim S1024x500 (![] : Fin 0 → Fin S1024x500.rank)
  reducesTo_S1024x500_S_d0_1 : S1024x500.ReducesTo [0, 1] S_

variable [Facts]

def fn {F : FTy → Type} [FloatOps F] (main_arg0 : FVec F S512x1024 .f32) (main_arg1 : FVec F S1024x500 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x500 .f32 := Host.absf main_arg1
  let main_cst_0 : FVec F S_ .f32 := constant S_ .f32 0x7F800000#32
  let main_v5 : FVec F S1024x500 .f32 := broadcastInDim S1024x500 ![] bcast_S_S1024x500 main_cst_0
  let main_v6 : IVec S1024x500 1 := cmpf .olt main_v4 main_v5
  let main_c_1 : IVec S_ 1 := constantI S_ 1 1#1
  let main_v7 : IVec S_ 1 := (fun x v => Host.reduce IntOp.andi x v reducesTo_S1024x500_S_d0_1 h_S_) main_v6 main_c_1
  let main_v8 : IVec S_ 1 := andi main_v3 main_v7
  main_v8
-- ==== Kernel.lean ====
abbrev S512x1024 : Shape := ⟨2, ![512, 1024]⟩
abbrev S1024x500 : Shape := ⟨2, ![1024, 500]⟩
abbrev S1024x100x5 : Shape := ⟨3, ![1024, 100, 5]⟩
abbrev S1024x5x100 : Shape := ⟨3, ![1024, 5, 100]⟩
abbrev S512x500 : Shape := ⟨2, ![512, 500]⟩
abbrev S256x1024 : Shape := ⟨2, ![256, 1024]⟩
abbrev S256x500 : Shape := ⟨2, ![256, 500]⟩
abbrev S512x5x100 : Shape := ⟨3, ![512, 5, 100]⟩
abbrev S5x100x512 : Shape := ⟨3, ![5, 100, 512]⟩
abbrev S512x100 : Shape := ⟨2, ![512, 100]⟩
abbrev S128x5x100 : Shape := ⟨3, ![128, 5, 100]⟩
abbrev S5x100x128 : Shape := ⟨3, ![5, 100, 128]⟩
abbrev S128x100 : Shape := ⟨2, ![128, 100]⟩
abbrev S128x1x100 : Shape := ⟨3, ![128, 1, 100]⟩
abbrev S128x100x1 : Shape := ⟨3, ![128, 100, 1]⟩
abbrev S1x100x128 : Shape := ⟨3, ![1, 100, 128]⟩
abbrev S100x128 : Shape := ⟨2, ![100, 128]⟩
abbrev S128x100x128 : Shape := ⟨3, ![128, 100, 128]⟩

abbrev nBuf : Space → Nat
  | .hbm => 9
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024x500, .f32⟩
  | .hbm, ⟨2, _⟩ => ⟨S1024x100x5, .f32⟩
  | .hbm, ⟨3, _⟩ => ⟨S1024x5x100, .f32⟩
  | .hbm, ⟨4, _⟩ => ⟨S1024x500, .f32⟩
  | .hbm, ⟨5, _⟩ => ⟨S512x500, .f32⟩
  | .hbm, ⟨6, _⟩ => ⟨S512x5x100, .f32⟩
  | .hbm, ⟨7, _⟩ => ⟨S5x100x512, .f32⟩
  | .hbm, ⟨8, _⟩ => ⟨S512x100, .f32⟩
  | .local _ .vmem, ⟨0, _⟩ => ⟨S256x1024, .f32⟩
  | .local _ .vmem, ⟨1, _⟩ => ⟨S256x1024, .f32⟩
  | .local _ .vmem, ⟨2, _⟩ => ⟨S1024x500, .f32⟩
  | .local _ .vmem, ⟨3, _⟩ => ⟨S256x500, .f32⟩
  | .local _ .vmem, ⟨4, _⟩ => ⟨S256x500, .f32⟩
  | .local _ .vmem, ⟨5, _⟩ => ⟨S128x5x100, .f32⟩
  | .local _ .vmem, ⟨6, _⟩ => ⟨S128x5x100, .f32⟩
  | .local _ .vmem, ⟨7, _⟩ => ⟨S5x100x128, .f32⟩
  | .local _ .vmem, ⟨8, _⟩ => ⟨S5x100x128, .f32⟩
  | .local _ .vmem, ⟨9, _⟩ => ⟨S128x100, .f32⟩
  | .local _ .vmem, ⟨10, _⟩ => ⟨S128x100, .f32⟩
  | .local _ .vmem, ⟨11, _⟩ => ⟨S128x100, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v70 : BitVec 1 := Scalar.cmpi .eq arg1 c3_i32
  let v71 : BitVec 32 := Scalar.extui v70
  let c0_i32_11 : BitVec 32 := 0#32
  let v72 : BitVec 1 := Scalar.cmpi .ne v71 c0_i32_11
  v72

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x5x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5x100x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1024x500_S1024x100x5 : S1024x500.ShapeCasts S1024x100x5
  transposes_S1024x100x5_S1024x5x100_0_2_1 : S1024x100x5.Transposes [0, 2, 1] S1024x5x100
  shapeCasts_S1024x5x100_S1024x500 : S1024x5x100.ShapeCasts S1024x500
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x500_S1024x500_0_0 : ∀ a, (![0, 0] : Fin 2 → Nat) a + S1024x500.size a ≤ S1024x500.size a
  h_S1024x500 : 0 < S1024x500.numel
  shapeCasts_S1024x500_S1024x500 : S1024x500.ShapeCasts S1024x500
  inb_S256x500_S256x500_0_0 : ∀ a, (![0, 0] : Fin 2 → Nat) a + S256x500.size a ≤ S256x500.size a
  h_S256x500 : 0 < S256x500.numel
  shapeCasts_S512x500_S512x5x100 : S512x500.ShapeCasts S512x5x100
  transposes_S512x5x100_S5x100x512_1_2_0 : S512x5x100.Transposes [1, 2, 0] S5x100x512
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S128x5x100_S128x5x100_0_0_0 : ∀ a, (![0, 0, 0] : Fin 3 → Nat) a + S128x5x100.size a ≤ S128x5x100.size a
  h_S128x5x100 : 0 < S128x5x100.numel
  shapeCasts_S128x5x100_S128x5x100 : S128x5x100.ShapeCasts S128x5x100
  inb_S5x100x128_S5x100x128_0_0_0 : ∀ a, (![0, 0, 0] : Fin 3 → Nat) a + S5x100x128.size a ≤ S5x100x128.size a
  h_S5x100x128 : 0 < S5x100x128.numel
  shapeCasts_S5x100x128_S5x100x128 : S5x100x128.ShapeCasts S5x100x128
  slices_S128x5x100_o0_0_0_S128x1x100 : S128x5x100.Slices ![0, 0, 0] S128x1x100
  shapeCasts_S128x1x100_S128x100 : S128x1x100.ShapeCasts S128x100
  shapeCasts_S128x100_S128x100x1 : S128x100.ShapeCasts S128x100x1
  slices_S5x100x128_o0_0_0_S1x100x128 : S5x100x128.Slices ![0, 0, 0] S1x100x128
  shapeCasts_S1x100x128_S100x128 : S1x100x128.ShapeCasts S100x128
  shapeCasts_S100x128_S1x100x128 : S100x128.ShapeCasts S1x100x128
  broadcasts_S128x100x1_S128x100x128 : S128x100x1.Broadcasts S128x100x128
  broadcasts_S1x100x128_S128x100x128 : S1x100x128.Broadcasts S128x100x128
  slices_S128x5x100_o0_1_0_S128x1x100 : S128x5x100.Slices ![0, 1, 0] S128x1x100
  slices_S5x100x128_o1_0_0_S1x100x128 : S5x100x128.Slices ![1, 0, 0] S1x100x128
  slices_S128x5x100_o0_2_0_S128x1x100 : S128x5x100.Slices ![0, 2, 0] S128x1x100
  slices_S5x100x128_o2_0_0_S1x100x128 : S5x100x128.Slices ![2, 0, 0] S1x100x128
  slices_S128x5x100_o0_3_0_S128x1x100 : S128x5x100.Slices ![0, 3, 0] S128x1x100
  slices_S5x100x128_o3_0_0_S1x100x128 : S5x100x128.Slices ![3, 0, 0] S1x100x128
  slices_S128x5x100_o0_4_0_S128x1x100 : S128x5x100.Slices ![0, 4, 0] S128x1x100
  slices_S5x100x128_o4_0_0_S1x100x128 : S5x100x128.Slices ![4, 0, 0] S1x100x128
  reduces_S128x100x128_S128x100 : S128x100x128.Reduces [2] S128x100
  dot_S256x1024_S1024x500_S256x500_1_0_0_1_n_n_wf : DotDims.WF S256x1024 S1024x500 S256x500 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x1024.size a
  hwx0_0 : ∀ i : grid0.Coords, EltTy.bits .f32 = 32 ∨ (Rect.block (s := S512x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x500.size a ≤ S1024x500.size a
  hwx0_1 : ∀ i : grid0.Coords, EltTy.bits .f32 = 32 ∨ (Rect.block (s := S1024x500) S1024x500.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x500.size a ≤ S512x500.size a
  hwx0_2 : ∀ i : grid0.Coords, EltTy.bits .f32 = 32 ∨ (Rect.block (s := S512x500) S256x500.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x5x100.size a ≤ S512x5x100.size a
  hwx1_0 : ∀ i : grid1.Coords, EltTy.bits .f32 = 32 ∨ (Rect.block (s := S512x5x100) S128x5x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5x100x128.size a ≤ S5x100x512.size a
  hwx1_1 : ∀ i : grid1.Coords, EltTy.bits .f32 = 32 ∨ (Rect.block (s := S5x100x512) S5x100x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x100.size a ≤ S512x100.size a
  hwx1_2 : ∀ i : grid1.Coords, EltTy.bits .f32 = 32 ∨ (Rect.block (s := S512x100) S128x100.size (cc1_transform_2 i) (hinb1_2 i)).WholeWords (EltTy.packing .f32)

variable [Facts₀]

def dot_S256x1024_S1024x500_S256x500_1_0_0_1_n_n : DotDims S256x1024 S1024x500 S256x500 where
  lhsContracting := [1]
  rhsContracting := [0]
  lhsNonContracting := [0]
  rhsNonContracting := [1]
  lhsBatch := []
  rhsBatch := []
  wf := dot_S256x1024_S1024x500_S256x500_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x500.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S128x5x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5x100x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x100.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x1024 : Shape := ⟨2, ![512, 1024]⟩
abbrev S1024x500 : Shape := ⟨2, ![1024, 500]⟩
abbrev S512x500 : Shape := ⟨2, ![512, 500]⟩
abbrev S512x100x5 : Shape := ⟨3, ![512, 100, 5]⟩
abbrev S512x100x5x1 : Shape := ⟨4, ![512, 100, 5, 1]⟩
abbrev S100x5x512 : Shape := ⟨3, ![100, 5, 512]⟩
abbrev S1x100x5x512 : Shape := ⟨4, ![1, 100, 5, 512]⟩
abbrev S512x100x5x512 : Shape := ⟨4, ![512, 100, 5, 512]⟩
abbrev S_ : Shape := ⟨0, ![]⟩
abbrev S512x100x512 : Shape := ⟨3, ![512, 100, 512]⟩
abbrev S512x100 : Shape := ⟨2, ![512, 100]⟩

abbrev nBuf : Space → Nat
  | .hbm => 17
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x500, .f32⟩
  | .hbm, ⟨2, _⟩ => ⟨S512x500, .f32⟩
  | .hbm, ⟨3, _⟩ => ⟨S512x100x5, .f32⟩
  | .hbm, ⟨4, _⟩ => ⟨S512x100x5x1, .f32⟩
  | .hbm, ⟨5, _⟩ => ⟨S100x5x512, .f32⟩
  | .hbm, ⟨6, _⟩ => ⟨S1x100x5x512, .f32⟩
  | .hbm, ⟨7, _⟩ => ⟨S512x100x5x512, .f32⟩
  | .hbm, ⟨8, _⟩ => ⟨S512x100x5x512, .f32⟩
  | .hbm, ⟨9, _⟩ => ⟨S512x100x5x512, .f32⟩
  | .hbm, ⟨10, _⟩ => ⟨S512x100x5x512, .f32⟩
  | .hbm, ⟨11, _⟩ => ⟨S_, .f32⟩
  | .hbm, ⟨12, _⟩ => ⟨S512x100x512, .f32⟩
  | .hbm, ⟨13, _⟩ => ⟨S512x100x512, .f32⟩
  | .hbm, ⟨14, _⟩ => ⟨S512x100x512, .f32⟩
  | .hbm, ⟨15, _⟩ => ⟨S_, .f32⟩
  | .hbm, ⟨16, _⟩ => ⟨S512x100, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S512x500_S512x100x5 : S512x500.ShapeCasts S512x100x5
  bcast_S512x100x5_S512x100x5x1_0_1_2 : S512x100x5.BroadcastsInDim S512x100x5x1 (![0, 1, 2] : Fin 3 → Fin S512x100x5x1.rank)
  transposes_S512x100x5_S100x5x512_1_2_0 : S512x100x5.Transposes [1, 2, 0] S100x5x512
  bcast_S100x5x512_S1x100x5x512_1_2_3 : S100x5x512.BroadcastsInDim S1x100x5x512 (![1, 2, 3] : Fin 3 → Fin S1x100x5x512.rank)
  bcast_S512x100x5x1_S512x100x5x512_0_1_2_3 : S512x100x5x1.BroadcastsInDim S512x100x5x512 (![0, 1, 2, 3] : Fin 4 → Fin S512x100x5x512.rank)
  bcast_S1x100x5x512_S512x100x5x512_0_1_2_3 : S1x100x5x512.BroadcastsInDim S512x100x5x512 (![0, 1, 2, 3] : Fin 4 → Fin S512x100x5x512.rank)
  reducesTo_S512x100x5x512_S512x100x512_d2 : S512x100x5x512.ReducesTo [2] S512x100x512
  h_S_ : 0 < S_.numel
  reducesTo_S512x100x512_S512x100_d2 : S512x100x512.ReducesTo [2] S512x100
  dot_S512x1024_S1024x500_S512x500_1_0_0_1_n_n_wf : DotDims.WF S512x1024 S1024x500 S512x500 [1] [0] [0] [1] [] []

variable [Facts₀]

def dot_S512x1024_S1024x500_S512x500_1_0_0_1_n_n : DotDims S512x1024 S1024x500 S512x500 where
  lhsContracting := [1]
  rhsContracting := [0]
  lhsNonContracting := [0]
  rhsNonContracting := [1]
  lhsBatch := []
  rhsBatch := []
  wf := dot_S512x1024_S1024x500_S512x500_1_0_0_1_n_n_wf

class Facts : Prop extends Facts₀ where

variable [Facts]
-- ==== Proof.K.Matmul.lean ====
/- Region 0 of the program: the matmul pallas_call's half of the frame proof, at any float instance.
   At a parameter `V` (the TensorCore's buffer contents when the region is entered): each window's block at a
   grid point, what the body leaves in the output window's buffer (the one store's payload over the two input
   blocks), the body's triple on whole staging memrefs, the pipeline's proof data and its body obligation. -/
import proofs.«177038_j16552803959337_2_alg».proof.Proof.Gen.Kernel.Launch
import proofs.«177038_j16552803959337_2_alg».proof.Proof.Gen.Kernel.Skeleton
import proofs.«177038_j16552803959337_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a 256x1024 row block of the left operand, moving with the grid point) holds its block in its
    current staging buffer at every point, for any proof data whose array is `V`'s and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole 1024x500 right operand, the same block at both points: fetched once, and where it is
    not fetched the block index has not moved) holds its block in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_0 : Rect S256x1024 := Rect.unit (s := S256x1024) ![0, 0] S256x1024.size inb_S256x1024_S256x1024_0_0
abbrev r0_1 : Rect S1024x500 := Rect.unit (s := S1024x500) ![0, 0] S1024x500.size inb_S1024x500_S1024x500_0_0
abbrev r0_2 : Rect S256x500 := Rect.unit (s := S256x500) ![0, 0] S256x500.size inb_S256x500_S256x500_0_0

/-! ## What the body leaves in the output window's buffer -/

/-- The output window's staging buffer after the body, from the two input blocks: its one store, of the matmul
    payload over the two loaded blocks, as a piece over the whole buffer. -/
def mmOut (x0 : Vec F S256x1024 .f32) (x1 : Vec F S1024x500 .f32) : Vec F S256x500 .f32 :=
  View.canon [⟨r0_2, k0_pay1 (View.ld x0 r0_0) (View.ld x1 r0_1)⟩]

/-- The one store is over the whole buffer, so it covers it. -/
theorem cover0_2 (p0 : Vec F S256x500 .f32) (y : S256x500.Idx) :
    ∃ pc ∈ ([⟨r0_2, p0⟩] : List (View.Piece (Elt F) S256x500 .f32)), y ∈ pc.1.set :=
  View.cover_of_tiled [⟨r0_2, p0⟩] S256x500.size (by rfl) y

/-! ## The body's triple -/

set_option maxHeartbeats 1000000 in
/-- The kernel body on whole staging memrefs, the inputs' at read contents `x0`, `x1` and the output's at anything,
    runs to the continuation holding the inputs' as they were and the output's at `mmOut x0 x1`: the value the
    body loads from the output buffer before storing is not used by the stored payload. -/
theorem sound_kernel0 (c : Dev nD) (E : Set ℕ) (i : grid0.Coords)
    (arg1 : Memref sig .tc .vmem S256x1024 .f32) (harg1 : arg1.IsWhole)
    (arg2 : Memref sig .tc .vmem S1024x500 .f32) (harg2 : arg2.IsWhole)
    (arg3 : Memref sig .tc .vmem S256x500 .f32) (harg3 : arg3.IsWhole)
    (x0 : Vec F S256x1024 .f32) (x1 : Vec F S1024x500 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (mmOut x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the matmul pipeline on core `c`: the arrays as the region finds them (`V`); after the body at
    point `t` each input's buffer at its block and the output's at `mmOut` of the two input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => mmOut (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = mmOut (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Boundary0.lean ====
/-
  The buffer contents at the first boundaries of @main, as a fold from the launch memory: at launch; after the
  first stretch of host operations (region 0's entry); at region 0's exit — its arrays at what its write-backs make
  of them, every other buffer as entered —; after the second stretch (region 1's entry).
-/
import proofs.«177038_j16552803959337_2_alg».proof.Proof.K.Matmul

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
end Cert.Kernel.Hand

end
-- ==== Proof.K.PairBase.lean ====
/-
  Region 1 — the pairwise kernel on its 4 × 4 grid (row tile `i`, other-row tile `j`, `j` fastest) — what its
  three control cases share. The body resets the accumulator scratch when `j = 0`, adds the tile's row sums of
  `exp (-dist)` to it at every point, and copies it to the output block when `j = 3`. So point `t` (with
  `j = t mod 4`) is in case A (`j = 0`: reset, accumulate), B (`j = 1, 2`: accumulate) or C (`j = 3`: accumulate,
  copy out); the output window is idle and not written back in cases A and B.
  Here: the blocks of the windows read off the contents the region is entered with; the two branch conditions
  in closed form over the grid; where the output window is idle and where it is written back; the staging and
  scratch memrefs; and the region's invariant split into the buffers of the other kernel, the scratch and the
  generator register.
-/
import proofs.«177038_j16552803959337_2_alg».proof.Proof.Gen.Kernel.Launch
import proofs.«177038_j16552803959337_2_alg».proof.Proof.Gen.Kernel.Skeleton
import proofs.«177038_j16552803959337_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window's staging buffer holds its block at every point, fetched there or not: between fetches
    the block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the other-row-tile window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The branch conditions, in closed form -/

/-- "`j = 0`", as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "`j = 3`", as the body computes it. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where `j ≠ 3` the body stores nothing into the output block, -/
theorem idleAt1_2 : ∀ t : Fin cfg1.N, ¬cond1_1 (grid1.coords t) → cfg1.idle 2 (grid1.coords t) = true := by decide +kernel
/-- and the block is not written back there. -/
theorem noFlush1_2 : ∀ t : Fin cfg1.N, ¬cond1_1 (grid1.coords t) → (cfg1.win 2).flush t = false := by decide +kernel
/-- Where `j = 3` it stores the whole block. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S128x5x100 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5x100x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x100 .f32 := win1_2.stage (cfg1.slots t 2)
abbrev hs1_2 (t : Fin cfg1.N) : (ms1_2 t).IsWhole := hstage1_2 ((cfg1.slots t 2).cast nbuf1_2)
/-- The accumulator scratch: a whole scoped buffer of the kernel's own. -/
abbrev scM1_0 : Memref sig .tc .vmem S128x100 .f32 := Memref.whole cc1_scratch0
/-- The scratch as a view: its contents are stated through it. -/
abbrev VS1_0 : View sig .tc .vmem S128x100 .f32 := scM1_0.view
/-- One staging buffer of the output window, through which its contents are stated. -/
abbrev VO1_2 : View sig .tc .vmem S128x100 .f32 := (Memref.whole cc1_stg2_0 : Memref sig .tc .vmem S128x100 .f32).view

/-! ## The region's invariant, split -/

/-- The matmul kernel's five staging buffers, each whole at some contents — scoped buffers region 1 never
    touches — beside one more resource `S` (the accumulator scratch, at contents the context states). -/
abbrev withOthers (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- What the launch hands region 1 — every scoped buffer that is no staging buffer of its own at some contents,
    and the generator register —: the other kernel's buffers, the scratch at some contents, the register. -/
theorem PhiA1_eq (c : Dev nD) :
    (Pipeline.ΦA spec1 c : sProp 𝕄)
      = iprop(withOthers c iprop(∃ d, owns (c : Thread nD τ) scM1_0 fullShare d) ∗ (∃ r, prngReg c r)) := by
  unfold Pipeline.ΦA; rw [scopedRest1_eq]; simp only [scM1_0, owns_whole]; try rfl

end Cert.Kernel.Hand

end
-- ==== Proof.K.PairRunA.lean ====
/-
  Region 1's body in case A (`j = 0`): the accumulator is reset, the tile's row sums are added to it, nothing
  is stored into the output block. The body's triple on whole memrefs: the two input blocks and the output
  buffer are handed back as found; the scratch, found at anything, ends with the stores' pieces written — the
  pieces are what the symbolic run of the body's skeleton finds.
-/
import proofs.«177038_j16552803959337_2_alg».proof.Proof.K.PairBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A's pieces for the output buffer (none) and for the scratch, with the body's triple. -/
noncomputable def kernelRun1_A (c : Dev nD) (i : grid1.Coords) (arg2 : Memref sig .tc .vmem S128x5x100 .f32) (harg2 : arg2.IsWhole) (arg3 : Memref sig .tc .vmem S5x100x128 .f32) (harg3 : arg3.IsWhole) (arg4 : Memref sig .tc .vmem S128x100 .f32) (harg4 : arg4.IsWhole) (arg5 : Memref sig .tc .vmem S128x100 .f32) (harg5 : arg5.IsWhole) (hc0 : cond1_0 i) (hc1 : ¬cond1_1 i)
    (x0 : Vec F S128x5x100 .f32) (x1 : Vec F S5x100x128 .f32) :
    Σ' (L2 : List (View.Piece (Elt F) S128x100 .f32)), { LS0 : List (View.Piece (Elt F) S128x100 .f32) //
      ∀ (xi2 : Vec F S128x100 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨[], ?_, fun xi2 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.PairRunB.lean ====
/-
  Region 1's body in case B (`j = 1, 2`): the tile's row sums are added to the accumulator, nothing is stored
  into the output block. The scratch is found at the contents the point before left; the input blocks and the
  output buffer are handed back as found; the scratch ends with the store's piece written.
-/
import proofs.«177038_j16552803959337_2_alg».proof.Proof.K.PairRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B's pieces for the output buffer (none) and for the scratch, with the body's triple. -/
noncomputable def kernelRun1_B (c : Dev nD) (i : grid1.Coords) (arg2 : Memref sig .tc .vmem S128x5x100 .f32) (harg2 : arg2.IsWhole) (arg3 : Memref sig .tc .vmem S5x100x128 .f32) (harg3 : arg3.IsWhole) (arg4 : Memref sig .tc .vmem S128x100 .f32) (harg4 : arg4.IsWhole) (arg5 : Memref sig .tc .vmem S128x100 .f32) (harg5 : arg5.IsWhole) (hc0 : ¬cond1_0 i) (hc1 : ¬cond1_1 i)
    (x0 : Vec F S128x5x100 .f32) (x1 : Vec F S5x100x128 .f32) (xs0 : Vec F S128x100 .f32) :
    Σ' (L2 : List (View.Piece (Elt F) S128x100 .f32)), { LS0 : List (View.Piece (Elt F) S128x100 .f32) //
      ∀ (xi2 : Vec F S128x100 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨[], ?_, fun xi2 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.PairRunC.lean ====
/-
  Region 1's body in case C (`j = 3`): the tile's row sums are added to the accumulator, and the accumulator is
  copied to the output block. The scratch is found at the contents the point before left, the output buffer at
  anything; the input blocks are handed back as found; the scratch and the output buffer end with their
  stores' pieces written.
-/
import proofs.«177038_j16552803959337_2_alg».proof.Proof.K.PairRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C's pieces for the output buffer and for the scratch, with the body's triple. -/
noncomputable def kernelRun1_C (c : Dev nD) (i : grid1.Coords) (arg2 : Memref sig .tc .vmem S128x5x100 .f32) (harg2 : arg2.IsWhole) (arg3 : Memref sig .tc .vmem S5x100x128 .f32) (harg3 : arg3.IsWhole) (arg4 : Memref sig .tc .vmem S128x100 .f32) (harg4 : arg4.IsWhole) (arg5 : Memref sig .tc .vmem S128x100 .f32) (harg5 : arg5.IsWhole) (hc0 : ¬cond1_0 i) (hc1 : cond1_1 i)
    (x0 : Vec F S128x5x100 .f32) (x1 : Vec F S5x100x128 .f32) (xs0 : Vec F S128x100 .f32) :
    Σ' (L2 : List (View.Piece (Elt F) S128x100 .f32)), { LS0 : List (View.Piece (Elt F) S128x100 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Pair.lean ====
/-
  Region 1 over its 16 points: what the accumulator scratch holds after each point, by recursion on the point —
  after a point with `j = 0` the reset accumulator plus the tile's row sums, after any other point what the point
  before left plus the tile's row sums —; what the output block holds after a point with `j = 3` (the accumulator
  copied out); the region's invariant (before the first point: every scoped buffer that is no staging buffer of
  this kernel at anything; afterwards: the scratch at what the point before left); the pipeline's proof data; and
  the body obligation at every point, by cases on `j`.
-/
import proofs.«177038_j16552803959337_2_alg».proof.Proof.K.PairRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's run at a point of the grid -/

/-- Case A's run at point `t` (`j = 0`), on the memrefs the pipeline calls the body with. -/
abbrev runA_at (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) scM1_0 (Memref.isWhole_whole _) ((hcond1_0 t).mpr h0) (fun h => h1 ((hcond1_1 t).mp h))
/-- Case B's run at point `t` (`j = 1, 2`). -/
abbrev runB_at (c : Dev nD) (t : Fin cfg1.N) (h0 : ¬t.val % 4 = 0) (h1 : ¬t.val % 4 = 3) :=
  kernelRun1_B (F := F) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h))
/-- Case C's run at point `t` (`j = 3`). -/
abbrev runC_at (c : Dev nD) (t : Fin cfg1.N) (h0 : ¬t.val % 4 = 0) (h1 : t.val % 4 = 3) :=
  kernelRun1_C (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1)

/-- A run's pieces for the scratch tile it: the last store covers the whole buffer. -/
theorem scoverA (c : Dev nD) (t : Fin cfg1.N) (h0 : t.val % 4 = 0) (h1 : ¬t.val % 4 = 3) (x0 : Vec F S128x5x100 .f32) (x1 : Vec F S5x100x128 .f32) (y : S128x100.Idx) :
    ∃ pc ∈ (runA_at c t h0 h1 x0 x1).2.1, y ∈ pc.1.set :=
  View.cover_of_tiledL (runA_at c t h0 h1 x0 x1).2.1 S128x100.size (by sl_kernel_rfl) y
theorem scoverB (c : Dev nD) (t : Fin cfg1.N) (h0 : ¬t.val % 4 = 0) (h1 : ¬t.val % 4 = 3) (x0 : Vec F S128x5x100 .f32) (x1 : Vec F S5x100x128 .f32) (xs0 : Vec F S128x100 .f32) (y : S128x100.Idx) :
    ∃ pc ∈ (runB_at c t h0 h1 x0 x1 xs0).2.1, y ∈ pc.1.set :=
  View.cover_of_tiledL (runB_at c t h0 h1 x0 x1 xs0).2.1 S128x100.size (by sl_kernel_rfl) y
theorem scoverC (c : Dev nD) (t : Fin cfg1.N) (h0 : ¬t.val % 4 = 0) (h1 : t.val % 4 = 3) (x0 : Vec F S128x5x100 .f32) (x1 : Vec F S5x100x128 .f32) (xs0 : Vec F S128x100 .f32) (y : S128x100.Idx) :
    ∃ pc ∈ (runC_at c t h0 h1 x0 x1 xs0).2.1, y ∈ pc.1.set :=
  View.cover_of_tiledL (runC_at c t h0 h1 x0 x1 xs0).2.1 S128x100.size (by sl_kernel_rfl) y
/-- Case C's one store into the output buffer covers it. -/
theorem coverC (c : Dev nD) (t : Fin cfg1.N) (h0 : ¬t.val % 4 = 0) (h1 : t.val % 4 = 3) (x0 : Vec F S128x5x100 .f32) (x1 : Vec F S5x100x128 .f32) (xs0 : Vec F S128x100 .f32) (y : S128x100.Idx) :
    ∃ pc ∈ (runC_at c t h0 h1 x0 x1 xs0).1, y ∈ pc.1.set :=
  View.cover_of_tiledL (runC_at c t h0 h1 x0 x1 xs0).1 S128x100.size (by sl_kernel_rfl) y

/-- What each case leaves in the scratch: its pieces read back. -/
def soutA (c : Dev nD) (t : Fin cfg1.N) (h0 : t.val % 4 = 0) (h1 : ¬t.val % 4 = 3) (x0 : Vec F S128x5x100 .f32) (x1 : Vec F S5x100x128 .f32) : Vec F S128x100 .f32 :=
  VS1_0.read (Elt F) (VS1_0.writes (Elt F) VS1_0.junk (runA_at c t h0 h1 x0 x1).2.1)
def soutB (c : Dev nD) (t : Fin cfg1.N) (h0 : ¬t.val % 4 = 0) (h1 : ¬t.val % 4 = 3) (x0 : Vec F S128x5x100 .f32) (x1 : Vec F S5x100x128 .f32) (xs0 : Vec F S128x100 .f32) : Vec F S128x100 .f32 :=
  VS1_0.read (Elt F) (VS1_0.writes (Elt F) VS1_0.junk (runB_at c t h0 h1 x0 x1 xs0).2.1)
def soutC (c : Dev nD) (t : Fin cfg1.N) (h0 : ¬t.val % 4 = 0) (h1 : t.val % 4 = 3) (x0 : Vec F S128x5x100 .f32) (x1 : Vec F S5x100x128 .f32) (xs0 : Vec F S128x100 .f32) : Vec F S128x100 .f32 :=
  VS1_0.read (Elt F) (VS1_0.writes (Elt F) VS1_0.junk (runC_at c t h0 h1 x0 x1 xs0).2.1)
/-- What case C leaves in the output buffer. -/
def outC (c : Dev nD) (t : Fin cfg1.N) (h0 : ¬t.val % 4 = 0) (h1 : t.val % 4 = 3) (x0 : Vec F S128x5x100 .f32) (x1 : Vec F S5x100x128 .f32) (xs0 : Vec F S128x100 .f32) : Vec F S128x100 .f32 :=
  VO1_2.read (Elt F) (VO1_2.writes (Elt F) VO1_2.junk (runC_at c t h0 h1 x0 x1 xs0).1)
/-- Where the body stores nothing into the output buffer: a placeholder nothing consults (the window is idle there,
    not written back, and not read at the next point). -/
def outIdle : Vec F S128x100 .f32 := VO1_2.read (Elt F) (VO1_2.writes (Elt F) VO1_2.junk [])

section
variable (V : (c : Dev nD) → (b : Ref sig .tc) → Buf (Elt F) ((c : Thread nD τ).loc b))

/-! ## The accumulation -/

/-- What the accumulator scratch holds after the body at position `n`: the case `n mod 4` selects, run on the
    point's input blocks, cases B and C over what position `n - 1` left. -/
def accAt (c : Dev nD) : (n : ℕ) → n < cfg1.N → Vec F S128x100 .f32
  | 0, hn => soutA c ⟨0, hn⟩ (Nat.zero_mod 4) (by show ¬0 % 4 = 3; decide) (iblk1 V c 0 ⟨0, hn⟩) (iblk1 V c 1 ⟨0, hn⟩)
  | n + 1, hn =>
    if h0 : (n + 1) % 4 = 0 then
      soutA c ⟨n + 1, hn⟩ h0 (by show ¬(n + 1) % 4 = 3; omega) (iblk1 V c 0 ⟨n + 1, hn⟩) (iblk1 V c 1 ⟨n + 1, hn⟩)
    else if h1 : (n + 1) % 4 = 3 then
      soutC c ⟨n + 1, hn⟩ h0 h1 (iblk1 V c 0 ⟨n + 1, hn⟩) (iblk1 V c 1 ⟨n + 1, hn⟩) (accAt c n (Nat.lt_of_succ_lt hn))
    else
      soutB c ⟨n + 1, hn⟩ h0 h1 (iblk1 V c 0 ⟨n + 1, hn⟩) (iblk1 V c 1 ⟨n + 1, hn⟩) (accAt c n (Nat.lt_of_succ_lt hn))

theorem accAt_A (c : Dev nD) (t : Fin cfg1.N) (h0 : t.val % 4 = 0) (h1 : ¬t.val % 4 = 3) :
    accAt V c t.val t.isLt = soutA c t h0 h1 (iblk1 V c 0 t) (iblk1 V c 1 t) := by
  obtain ⟨n, hn⟩ := t
  cases n with
  | zero => exact rfl
  | succ n => exact (dif_pos h0).trans rfl

theorem accAt_B (c : Dev nD) (t : Fin cfg1.N) (h0 : ¬t.val % 4 = 0) (h1 : ¬t.val % 4 = 3) :
    accAt V c t.val t.isLt = soutB c t h0 h1 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_C (c : Dev nD) (t : Fin cfg1.N) (h0 : ¬t.val % 4 = 0) (h1 : t.val % 4 = 3) :
    accAt V c t.val t.isLt = soutC c t h0 h1 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's staging buffer holds after the body at point `t`: at `j = 3` the accumulator copied
    out, elsewhere the placeholder. -/
def outAt (c : Dev nD) (t : Fin cfg1.N) : Vec F S128x100 .f32 :=
  if h1 : t.val % 4 = 3 then
    outC c t (by omega) h1 (iblk1 V c 0 t) (iblk1 V c 1 t) (accAt V c (t.val - 1) (Nat.lt_of_le_of_lt (Nat.sub_le _ _) t.isLt))
  else outIdle

theorem outAt_C (c : Dev nD) (t : Fin cfg1.N) (h0 : ¬t.val % 4 = 0) (h1 : t.val % 4 = 3) :
    outAt V c t = outC c t h0 h1 (iblk1 V c 0 t) (iblk1 V c 1 t) (accAt V c (t.val - 1) (Nat.lt_of_le_of_lt (Nat.sub_le _ _) t.isLt)) :=
  dif_pos h1

/-! ## The invariant -/

/-- Before position `n`: before the first point what the launch hands the region; afterwards the other kernel's
    buffers, the scratch at what the point before left, and the generator register. -/
def PhiS (c : Dev nD) : (n : ℕ) → n ≤ cfg1.N → sProp 𝕄
  | 0, _ => Pipeline.ΦA spec1 c
  | n + 1, hn => iprop(withOthers c (owns (c : Thread nD τ) scM1_0 fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(withOthers c (owns (c : Thread nD τ) scM1_0 fullShare (accAt V c n hn)) ∗ (∃ r, prngReg c r)) := rfl

theorem PhiS_pos (c : Dev nD) (n : ℕ) (h : n ≤ cfg1.N) (hz : n ≠ 0) :
    PhiS V c n h = iprop(withOthers c (owns (c : Thread nD τ) scM1_0 fullShare (accAt V c (n - 1) (by omega))) ∗ (∃ r, prngReg c r)) := by
  cases n with
  | zero => exact absurd rfl hz
  | succ n => rfl

/-! ## The proof data -/

/-- Region 1's proof data on core `c`: the arrays as the region finds them; after the body each input's buffer
    at its block and the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end

section
variable (V : (c : Dev nD) → (b : Ref sig .tc) → Buf (Elt F) ((c : Thread nD τ).loc b))

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; `j = t mod 4` selects the case; the invariant hands
    the body the scratch at what the point before left (at anything before the first point, and a reset does not read
    it) and takes it back at this point's contents; where `j ≠ 3` the output buffer passes through untouched; the
    other kernel's buffers, the generator register and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h1 : t.val % 4 = 3
  · have h0 : ¬t.val % 4 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2, outAt_C V c t h0 h1]
    rw [accAt_C V c t h0 h1]
    unfold outC soutC; (try dsimp only)
    rw [PhiS_castSucc V c t, PhiS_pos V c _ _ hz]
    unfold withOthers
    iintro ⟨⟨⟨Hb0, Hb1, Hb2, Hb3, Hb4, HS0⟩, Hg⟩, Ho, ⟨%d0, H0⟩, ⟨%d1, H1⟩, ⟨%d2, H2⟩⟩
    iapply ((runC_at c t h0 h1 (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Hb0 Hb1 Hb2 Hb3 Hb4 HS0 Hg]
    · isplitl [Hb0 Hb1 Hb2 Hb3 Hb4 HS0]
      · isplitl [Hb0]; · iexact Hb0
        isplitl [Hb1]; · iexact Hb1
        isplitl [Hb2]; · iexact Hb2
        isplitl [Hb3]; · iexact Hb3
        isplitl [Hb4]; · iexact Hb4
        unfold owns; iexists _; isplitr
        swap; · iexact HS0
        ipureintro; exact View.read_writes_of_cover _ _ _ _ _ (scoverC c t h0 h1 _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (coverC c t h0 h1 _ _ _)
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [accAt_A V c t h0 h1]
      unfold soutA; (try dsimp only)
      by_cases hz : t.val = 0
      · rw [PhiS_castSucc V c t, PhiS_zero V c _ _ hz, PhiA1_eq]
        unfold withOthers
        iintro ⟨⟨⟨Hb0, Hb1, Hb2, Hb3, Hb4, HS0⟩, Hg⟩, Ho, ⟨%d0, H0⟩, ⟨%d1, H1⟩, ⟨%d2, H2⟩⟩
        iapply ((runA_at c t h0 h1 (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hb0 Hb1 Hb2 Hb3 Hb4 HS0 Hg]
        · isplitl [Hb0 Hb1 Hb2 Hb3 Hb4 HS0]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scoverA c t h0 h1 _ _)
          iexact Hg
        isplitl [Ho]; · iexact Ho
        isplitl [H0]; · iexact H0
        isplitl [H1]; · iexact H1
        iexists _; iexact H2
      · rw [PhiS_castSucc V c t, PhiS_pos V c _ _ hz]
        unfold withOthers
        iintro ⟨⟨⟨Hb0, Hb1, Hb2, Hb3, Hb4, HS0⟩, Hg⟩, Ho, ⟨%d0, H0⟩, ⟨%d1, H1⟩, ⟨%d2, H2⟩⟩
        iapply ((runA_at c t h0 h1 (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Hb0 Hb1 Hb2 Hb3 Hb4 HS0 Hg]
        · isplitl [Hb0 Hb1 Hb2 Hb3 Hb4 HS0]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scoverA c t h0 h1 _ _)
          iexact Hg
        isplitl [Ho]; · iexact Ho
        isplitl [H0]; · iexact H0
        isplitl [H1]; · iexact H1
        iexists _; iexact H2
    · have hz : t.val ≠ 0 := by omega
      rw [accAt_B V c t h0 h1]
      unfold soutB; (try dsimp only)
      rw [PhiS_castSucc V c t, PhiS_pos V c _ _ hz]
      unfold withOthers
      iintro ⟨⟨⟨Hb0, Hb1, Hb2, Hb3, Hb4, HS0⟩, Hg⟩, Ho, ⟨%d0, H0⟩, ⟨%d1, H1⟩, ⟨%d2, H2⟩⟩
      iapply ((runB_at c t h0 h1 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hb0 Hb1 Hb2 Hb3 Hb4 HS0 Hg]
      · isplitl [Hb0 Hb1 Hb2 Hb3 Hb4 HS0]
        · isplitl [Hb0]; · iexact Hb0
          isplitl [Hb1]; · iexact Hb1
          isplitl [Hb2]; · iexact Hb2
          isplitl [Hb3]; · iexact Hb3
          isplitl [Hb4]; · iexact Hb4
          unfold owns; iexists _; isplitr
          swap; · iexact HS0
          ipureintro; exact View.read_writes_of_cover _ _ _ _ _ (scoverB c t h0 h1 _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives back what the launch handed in: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold withOthers
  iintro ⟨⟨Hb0, Hb1, Hb2, Hb3, Hb4, HS0⟩, Hg⟩
  isplitl [Hb0 Hb1 Hb2 Hb3 Hb4 HS0]
  · isplitl [Hb0]; · iexact Hb0
    isplitl [Hb1]; · iexact Hb1
    isplitl [Hb2]; · iexact Hb2
    isplitl [Hb3]; · iexact Hb3
    isplitl [Hb4]; · iexact Hb4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end

end Cert.Kernel.Hand

end
-- ==== Proof.K.Boundary.lean ====
/-
  The buffer contents at each boundary of @main, as a fold from the launch memory: a stretch of host operations
  applies its operations; a region leaves its arrays at what its write-backs make of them and every other buffer
  as entered. Read back through the fold: no host operation and no region writes an argument, so both arguments
  end as launched; the result buffer ends at region 1's final output array.
-/
import proofs.«177038_j16552803959337_2_alg».proof.Proof.K.Boundary0
import proofs.«177038_j16552803959337_2_alg».proof.Proof.K.Pair

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched; the result is region 1's final output array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_v6 (c : Dev nD) : W4 m ρ c (Proc.devRef .tc main_v6) = (dat1 (V3 m ρ) c).arrAt 2 cfg1.N :=
  W4_arr m ρ c 2

end Cert.Kernel.Hand

end
-- ==== Proof.K.Run.lean ====
/-
  The whole run of @main: a stretch of host operations (the weight's columns regrouped), region 0 (the
  projection), a stretch of host operations (the projection reshaped and transposed), region 1 (the pairwise
  kernel). The buffer contents at each boundary are a fold from the launch memory: a stretch applies its
  operations; a region leaves its arrays at what its write-backs make of them and every other buffer as entered.
  Each region is a segment between the thread states "every unscoped buffer at the boundary's contents, the
  generator register at some state, nothing owed"; the launch theorem for several regions then gives: every weakly
  fair execution terminates without a fault, and the final memory holds every unscoped buffer at the last
  boundary's contents — in particular both arguments as launched and the result at region 1's final array.
-/
import proofs.«177038_j16552803959337_2_alg».proof.Proof.K.Boundary

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 between "every unscoped buffer at `W1`" and "every unscoped buffer at `W2`": its arrays split out of
    the unscoped buffers and put back at their final contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between "every unscoped buffer at `W3`" and the last thread state: as region 0, except that its
    invariant starts as what the launch hands in (`hin1`) and gives that back after the last point (`hout1`), the
    accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    have hback := hout1 (V3 m ρ) c
    unfold Pipeline.ΦA at hback
    iintro H
    ihave H' := hback $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and the final memory holds the result at region 1's final output array and both arguments as
    launched. -/
theorem run_all : θ_run defs (onTc (τ := τ) (main (F := F))) ⟨m, fun _ => 0, ρ⟩ (fun r => ∀ c : Dev nD,
      r.2.mem ((c.tc : Thread nD τ).loc main_v6) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v6 (by decide))).trans (W4_main_v6 m ρ c),
       (h c _ (mem_uc main_arg0 (by decide))).trans (W4_main_arg0 m ρ c),
       (h c _ (mem_uc main_arg1 (by decide))).trans (W4_main_arg1 m ρ c)⟩)

end Cert.Kernel.Hand

end
-- ==== Proof.KI.Matmul.lean ====
/- Region 0 of the program: the matmul pallas_call's half of the frame proof, at any float instance.
   At a parameter `V` (the TensorCore's buffer contents when the region is entered): each window's block at a
   grid point, what the body leaves in the output window's buffer (the one store's payload over the two input
   blocks), the body's triple on whole staging memrefs, the pipeline's proof data and its body obligation. -/
import proofs.«177038_j16552803959337_2_alg».proof.Proof.Gen.KernelIdeal.Launch
import proofs.«177038_j16552803959337_2_alg».proof.Proof.Gen.KernelIdeal.Skeleton
import proofs.«177038_j16552803959337_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a 256x1024 row block of the left operand, moving with the grid point) holds its block in its
    current staging buffer at every point, for any proof data whose array is `V`'s and whose body leaves the block
    in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole 1024x500 right operand, the same block at both points: fetched once, and where it is
    not fetched the block index has not moved) holds its block in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_0 : Rect S256x1024 := Rect.unit (s := S256x1024) ![0, 0] S256x1024.size inb_S256x1024_S256x1024_0_0
abbrev r0_1 : Rect S1024x500 := Rect.unit (s := S1024x500) ![0, 0] S1024x500.size inb_S1024x500_S1024x500_0_0
abbrev r0_2 : Rect S256x500 := Rect.unit (s := S256x500) ![0, 0] S256x500.size inb_S256x500_S256x500_0_0

/-! ## What the body leaves in the output window's buffer -/

/-- The output window's staging buffer after the body, from the two input blocks: its one store, of the matmul
    payload over the two loaded blocks, as a piece over the whole buffer. -/
def mmOut (x0 : Vec F S256x1024 .f32) (x1 : Vec F S1024x500 .f32) : Vec F S256x500 .f32 :=
  View.canon [⟨r0_2, k0_pay1 (View.ld x0 r0_0) (View.ld x1 r0_1)⟩]

/-- The one store is over the whole buffer, so it covers it. -/
theorem cover0_2 (p0 : Vec F S256x500 .f32) (y : S256x500.Idx) :
    ∃ pc ∈ ([⟨r0_2, p0⟩] : List (View.Piece (Elt F) S256x500 .f32)), y ∈ pc.1.set :=
  View.cover_of_tiled [⟨r0_2, p0⟩] S256x500.size (by rfl) y

/-! ## The body's triple -/

set_option maxHeartbeats 1000000 in
/-- The kernel body on whole staging memrefs, the inputs' at read contents `x0`, `x1` and the output's at anything,
    runs to the continuation holding the inputs' as they were and the output's at `mmOut x0 x1`: the value the
    body loads from the output buffer before storing is not used by the stored payload. -/
theorem sound_kernel0 (c : Dev nD) (E : Set ℕ) (i : grid0.Coords)
    (arg1 : Memref sig .tc .vmem S256x1024 .f32) (harg1 : arg1.IsWhole)
    (arg2 : Memref sig .tc .vmem S1024x500 .f32) (harg2 : arg2.IsWhole)
    (arg3 : Memref sig .tc .vmem S256x500 .f32) (harg3 : arg3.IsWhole)
    (x0 : Vec F S256x1024 .f32) (x1 : Vec F S1024x500 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (mmOut x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the matmul pipeline on core `c`: the arrays as the region finds them (`V`); after the body at
    point `t` each input's buffer at its block and the output's at `mmOut` of the two input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => mmOut (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = mmOut (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Boundary0.lean ====
/-
  The buffer contents at the first boundaries of @main, as a fold from the launch memory: at launch; after the
  first stretch of host operations (region 0's entry); at region 0's exit — its arrays at what its write-backs make
  of them, every other buffer as entered —; after the second stretch (region 1's entry).
-/
import proofs.«177038_j16552803959337_2_alg».proof.Proof.KI.Matmul

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
end Cert.KernelIdeal.Hand

end
-- ==== Proof.KI.PairBase.lean ====
/-
  Region 1 — the pairwise kernel on its 4 × 4 grid (row tile `i`, other-row tile `j`, `j` fastest) — what its
  three control cases share. The body resets the accumulator scratch when `j = 0`, adds the tile's row sums of
  `exp (-dist)` to it at every point, and copies it to the output block when `j = 3`. So point `t` (with
  `j = t mod 4`) is in case A (`j = 0`: reset, accumulate), B (`j = 1, 2`: accumulate) or C (`j = 3`: accumulate,
  copy out); the output window is idle and not written back in cases A and B.
  Here: the blocks of the windows read off the contents the region is entered with; the two branch conditions
  in closed form over the grid; where the output window is idle and where it is written back; the staging and
  scratch memrefs; and the region's invariant split into the buffers of the other kernel, the scratch and the
  generator register.
-/
import proofs.«177038_j16552803959337_2_alg».proof.Proof.Gen.KernelIdeal.Launch
import proofs.«177038_j16552803959337_2_alg».proof.Proof.Gen.KernelIdeal.Skeleton
import proofs.«177038_j16552803959337_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window's staging buffer holds its block at every point, fetched there or not: between fetches
    the block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the other-row-tile window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The branch conditions, in closed form -/

/-- "`j = 0`", as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "`j = 3`", as the body computes it. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where `j ≠ 3` the body stores nothing into the output block, -/
theorem idleAt1_2 : ∀ t : Fin cfg1.N, ¬cond1_1 (grid1.coords t) → cfg1.idle 2 (grid1.coords t) = true := by decide +kernel
/-- and the block is not written back there. -/
theorem noFlush1_2 : ∀ t : Fin cfg1.N, ¬cond1_1 (grid1.coords t) → (cfg1.win 2).flush t = false := by decide +kernel
/-- Where `j = 3` it stores the whole block. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S128x5x100 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5x100x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x100 .f32 := win1_2.stage (cfg1.slots t 2)
abbrev hs1_2 (t : Fin cfg1.N) : (ms1_2 t).IsWhole := hstage1_2 ((cfg1.slots t 2).cast nbuf1_2)
/-- The accumulator scratch: a whole scoped buffer of the kernel's own. -/
abbrev scM1_0 : Memref sig .tc .vmem S128x100 .f32 := Memref.whole cc1_scratch0
/-- The scratch as a view: its contents are stated through it. -/
abbrev VS1_0 : View sig .tc .vmem S128x100 .f32 := scM1_0.view
/-- One staging buffer of the output window, through which its contents are stated. -/
abbrev VO1_2 : View sig .tc .vmem S128x100 .f32 := (Memref.whole cc1_stg2_0 : Memref sig .tc .vmem S128x100 .f32).view

/-! ## The region's invariant, split -/

/-- The matmul kernel's five staging buffers, each whole at some contents — scoped buffers region 1 never
    touches — beside one more resource `S` (the accumulator scratch, at contents the context states). -/
abbrev withOthers (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- What the launch hands region 1 — every scoped buffer that is no staging buffer of its own at some contents,
    and the generator register —: the other kernel's buffers, the scratch at some contents, the register. -/
theorem PhiA1_eq (c : Dev nD) :
    (Pipeline.ΦA spec1 c : sProp 𝕄)
      = iprop(withOthers c iprop(∃ d, owns (c : Thread nD τ) scM1_0 fullShare d) ∗ (∃ r, prngReg c r)) := by
  unfold Pipeline.ΦA; rw [scopedRest1_eq]; simp only [scM1_0, owns_whole]; try rfl

end Cert.KernelIdeal.Hand

end
-- ==== Proof.KI.PairRunA.lean ====
/-
  Region 1's body in case A (`j = 0`): the accumulator is reset, the tile's row sums are added to it, nothing
  is stored into the output block. The body's triple on whole memrefs: the two input blocks and the output
  buffer are handed back as found; the scratch, found at anything, ends with the stores' pieces written — the
  pieces are what the symbolic run of the body's skeleton finds.
-/
import proofs.«177038_j16552803959337_2_alg».proof.Proof.KI.PairBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A's pieces for the output buffer (none) and for the scratch, with the body's triple. -/
noncomputable def kernelRun1_A (c : Dev nD) (i : grid1.Coords) (arg2 : Memref sig .tc .vmem S128x5x100 .f32) (harg2 : arg2.IsWhole) (arg3 : Memref sig .tc .vmem S5x100x128 .f32) (harg3 : arg3.IsWhole) (arg4 : Memref sig .tc .vmem S128x100 .f32) (harg4 : arg4.IsWhole) (arg5 : Memref sig .tc .vmem S128x100 .f32) (harg5 : arg5.IsWhole) (hc0 : cond1_0 i) (hc1 : ¬cond1_1 i)
    (x0 : Vec F S128x5x100 .f32) (x1 : Vec F S5x100x128 .f32) :
    Σ' (L2 : List (View.Piece (Elt F) S128x100 .f32)), { LS0 : List (View.Piece (Elt F) S128x100 .f32) //
      ∀ (xi2 : Vec F S128x100 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨[], ?_, fun xi2 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.PairRunB.lean ====
/-
  Region 1's body in case B (`j = 1, 2`): the tile's row sums are added to the accumulator, nothing is stored
  into the output block. The scratch is found at the contents the point before left; the input blocks and the
  output buffer are handed back as found; the scratch ends with the store's piece written.
-/
import proofs.«177038_j16552803959337_2_alg».proof.Proof.KI.PairRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B's pieces for the output buffer (none) and for the scratch, with the body's triple. -/
noncomputable def kernelRun1_B (c : Dev nD) (i : grid1.Coords) (arg2 : Memref sig .tc .vmem S128x5x100 .f32) (harg2 : arg2.IsWhole) (arg3 : Memref sig .tc .vmem S5x100x128 .f32) (harg3 : arg3.IsWhole) (arg4 : Memref sig .tc .vmem S128x100 .f32) (harg4 : arg4.IsWhole) (arg5 : Memref sig .tc .vmem S128x100 .f32) (harg5 : arg5.IsWhole) (hc0 : ¬cond1_0 i) (hc1 : ¬cond1_1 i)
    (x0 : Vec F S128x5x100 .f32) (x1 : Vec F S5x100x128 .f32) (xs0 : Vec F S128x100 .f32) :
    Σ' (L2 : List (View.Piece (Elt F) S128x100 .f32)), { LS0 : List (View.Piece (Elt F) S128x100 .f32) //
      ∀ (xi2 : Vec F S128x100 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨[], ?_, fun xi2 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.PairRunC.lean ====
/-
  Region 1's body in case C (`j = 3`): the tile's row sums are added to the accumulator, and the accumulator is
  copied to the output block. The scratch is found at the contents the point before left, the output buffer at
  anything; the input blocks are handed back as found; the scratch and the output buffer end with their
  stores' pieces written.
-/
import proofs.«177038_j16552803959337_2_alg».proof.Proof.KI.PairRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C's pieces for the output buffer and for the scratch, with the body's triple. -/
noncomputable def kernelRun1_C (c : Dev nD) (i : grid1.Coords) (arg2 : Memref sig .tc .vmem S128x5x100 .f32) (harg2 : arg2.IsWhole) (arg3 : Memref sig .tc .vmem S5x100x128 .f32) (harg3 : arg3.IsWhole) (arg4 : Memref sig .tc .vmem S128x100 .f32) (harg4 : arg4.IsWhole) (arg5 : Memref sig .tc .vmem S128x100 .f32) (harg5 : arg5.IsWhole) (hc0 : ¬cond1_0 i) (hc1 : cond1_1 i)
    (x0 : Vec F S128x5x100 .f32) (x1 : Vec F S5x100x128 .f32) (xs0 : Vec F S128x100 .f32) :
    Σ' (L2 : List (View.Piece (Elt F) S128x100 .f32)), { LS0 : List (View.Piece (Elt F) S128x100 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Pair.lean ====
/-
  Region 1 over its 16 points: what the accumulator scratch holds after each point, by recursion on the point —
  after a point with `j = 0` the reset accumulator plus the tile's row sums, after any other point what the point
  before left plus the tile's row sums —; what the output block holds after a point with `j = 3` (the accumulator
  copied out); the region's invariant (before the first point: every scoped buffer that is no staging buffer of
  this kernel at anything; afterwards: the scratch at what the point before left); the pipeline's proof data; and
  the body obligation at every point, by cases on `j`.
-/
import proofs.«177038_j16552803959337_2_alg».proof.Proof.KI.PairRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each case's run at a point of the grid -/

/-- Case A's run at point `t` (`j = 0`), on the memrefs the pipeline calls the body with. -/
abbrev runA_at (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) scM1_0 (Memref.isWhole_whole _) ((hcond1_0 t).mpr h0) (fun h => h1 ((hcond1_1 t).mp h))
/-- Case B's run at point `t` (`j = 1, 2`). -/
abbrev runB_at (c : Dev nD) (t : Fin cfg1.N) (h0 : ¬t.val % 4 = 0) (h1 : ¬t.val % 4 = 3) :=
  kernelRun1_B (F := F) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h))
/-- Case C's run at point `t` (`j = 3`). -/
abbrev runC_at (c : Dev nD) (t : Fin cfg1.N) (h0 : ¬t.val % 4 = 0) (h1 : t.val % 4 = 3) :=
  kernelRun1_C (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1)

/-- A run's pieces for the scratch tile it: the last store covers the whole buffer. -/
theorem scoverA (c : Dev nD) (t : Fin cfg1.N) (h0 : t.val % 4 = 0) (h1 : ¬t.val % 4 = 3) (x0 : Vec F S128x5x100 .f32) (x1 : Vec F S5x100x128 .f32) (y : S128x100.Idx) :
    ∃ pc ∈ (runA_at c t h0 h1 x0 x1).2.1, y ∈ pc.1.set :=
  View.cover_of_tiledL (runA_at c t h0 h1 x0 x1).2.1 S128x100.size (by sl_kernel_rfl) y
theorem scoverB (c : Dev nD) (t : Fin cfg1.N) (h0 : ¬t.val % 4 = 0) (h1 : ¬t.val % 4 = 3) (x0 : Vec F S128x5x100 .f32) (x1 : Vec F S5x100x128 .f32) (xs0 : Vec F S128x100 .f32) (y : S128x100.Idx) :
    ∃ pc ∈ (runB_at c t h0 h1 x0 x1 xs0).2.1, y ∈ pc.1.set :=
  View.cover_of_tiledL (runB_at c t h0 h1 x0 x1 xs0).2.1 S128x100.size (by sl_kernel_rfl) y
theorem scoverC (c : Dev nD) (t : Fin cfg1.N) (h0 : ¬t.val % 4 = 0) (h1 : t.val % 4 = 3) (x0 : Vec F S128x5x100 .f32) (x1 : Vec F S5x100x128 .f32) (xs0 : Vec F S128x100 .f32) (y : S128x100.Idx) :
    ∃ pc ∈ (runC_at c t h0 h1 x0 x1 xs0).2.1, y ∈ pc.1.set :=
  View.cover_of_tiledL (runC_at c t h0 h1 x0 x1 xs0).2.1 S128x100.size (by sl_kernel_rfl) y
/-- Case C's one store into the output buffer covers it. -/
theorem coverC (c : Dev nD) (t : Fin cfg1.N) (h0 : ¬t.val % 4 = 0) (h1 : t.val % 4 = 3) (x0 : Vec F S128x5x100 .f32) (x1 : Vec F S5x100x128 .f32) (xs0 : Vec F S128x100 .f32) (y : S128x100.Idx) :
    ∃ pc ∈ (runC_at c t h0 h1 x0 x1 xs0).1, y ∈ pc.1.set :=
  View.cover_of_tiledL (runC_at c t h0 h1 x0 x1 xs0).1 S128x100.size (by sl_kernel_rfl) y

/-- What each case leaves in the scratch: its pieces read back. -/
def soutA (c : Dev nD) (t : Fin cfg1.N) (h0 : t.val % 4 = 0) (h1 : ¬t.val % 4 = 3) (x0 : Vec F S128x5x100 .f32) (x1 : Vec F S5x100x128 .f32) : Vec F S128x100 .f32 :=
  VS1_0.read (Elt F) (VS1_0.writes (Elt F) VS1_0.junk (runA_at c t h0 h1 x0 x1).2.1)
def soutB (c : Dev nD) (t : Fin cfg1.N) (h0 : ¬t.val % 4 = 0) (h1 : ¬t.val % 4 = 3) (x0 : Vec F S128x5x100 .f32) (x1 : Vec F S5x100x128 .f32) (xs0 : Vec F S128x100 .f32) : Vec F S128x100 .f32 :=
  VS1_0.read (Elt F) (VS1_0.writes (Elt F) VS1_0.junk (runB_at c t h0 h1 x0 x1 xs0).2.1)
def soutC (c : Dev nD) (t : Fin cfg1.N) (h0 : ¬t.val % 4 = 0) (h1 : t.val % 4 = 3) (x0 : Vec F S128x5x100 .f32) (x1 : Vec F S5x100x128 .f32) (xs0 : Vec F S128x100 .f32) : Vec F S128x100 .f32 :=
  VS1_0.read (Elt F) (VS1_0.writes (Elt F) VS1_0.junk (runC_at c t h0 h1 x0 x1 xs0).2.1)
/-- What case C leaves in the output buffer. -/
def outC (c : Dev nD) (t : Fin cfg1.N) (h0 : ¬t.val % 4 = 0) (h1 : t.val % 4 = 3) (x0 : Vec F S128x5x100 .f32) (x1 : Vec F S5x100x128 .f32) (xs0 : Vec F S128x100 .f32) : Vec F S128x100 .f32 :=
  VO1_2.read (Elt F) (VO1_2.writes (Elt F) VO1_2.junk (runC_at c t h0 h1 x0 x1 xs0).1)
/-- Where the body stores nothing into the output buffer: a placeholder nothing consults (the window is idle there,
    not written back, and not read at the next point). -/
def outIdle : Vec F S128x100 .f32 := VO1_2.read (Elt F) (VO1_2.writes (Elt F) VO1_2.junk [])

section
variable (V : (c : Dev nD) → (b : Ref sig .tc) → Buf (Elt F) ((c : Thread nD τ).loc b))

/-! ## The accumulation -/

/-- What the accumulator scratch holds after the body at position `n`: the case `n mod 4` selects, run on the
    point's input blocks, cases B and C over what position `n - 1` left. -/
def accAt (c : Dev nD) : (n : ℕ) → n < cfg1.N → Vec F S128x100 .f32
  | 0, hn => soutA c ⟨0, hn⟩ (Nat.zero_mod 4) (by show ¬0 % 4 = 3; decide) (iblk1 V c 0 ⟨0, hn⟩) (iblk1 V c 1 ⟨0, hn⟩)
  | n + 1, hn =>
    if h0 : (n + 1) % 4 = 0 then
      soutA c ⟨n + 1, hn⟩ h0 (by show ¬(n + 1) % 4 = 3; omega) (iblk1 V c 0 ⟨n + 1, hn⟩) (iblk1 V c 1 ⟨n + 1, hn⟩)
    else if h1 : (n + 1) % 4 = 3 then
      soutC c ⟨n + 1, hn⟩ h0 h1 (iblk1 V c 0 ⟨n + 1, hn⟩) (iblk1 V c 1 ⟨n + 1, hn⟩) (accAt c n (Nat.lt_of_succ_lt hn))
    else
      soutB c ⟨n + 1, hn⟩ h0 h1 (iblk1 V c 0 ⟨n + 1, hn⟩) (iblk1 V c 1 ⟨n + 1, hn⟩) (accAt c n (Nat.lt_of_succ_lt hn))

theorem accAt_A (c : Dev nD) (t : Fin cfg1.N) (h0 : t.val % 4 = 0) (h1 : ¬t.val % 4 = 3) :
    accAt V c t.val t.isLt = soutA c t h0 h1 (iblk1 V c 0 t) (iblk1 V c 1 t) := by
  obtain ⟨n, hn⟩ := t
  cases n with
  | zero => exact rfl
  | succ n => exact (dif_pos h0).trans rfl

theorem accAt_B (c : Dev nD) (t : Fin cfg1.N) (h0 : ¬t.val % 4 = 0) (h1 : ¬t.val % 4 = 3) :
    accAt V c t.val t.isLt = soutB c t h0 h1 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_C (c : Dev nD) (t : Fin cfg1.N) (h0 : ¬t.val % 4 = 0) (h1 : t.val % 4 = 3) :
    accAt V c t.val t.isLt = soutC c t h0 h1 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's staging buffer holds after the body at point `t`: at `j = 3` the accumulator copied
    out, elsewhere the placeholder. -/
def outAt (c : Dev nD) (t : Fin cfg1.N) : Vec F S128x100 .f32 :=
  if h1 : t.val % 4 = 3 then
    outC c t (by omega) h1 (iblk1 V c 0 t) (iblk1 V c 1 t) (accAt V c (t.val - 1) (Nat.lt_of_le_of_lt (Nat.sub_le _ _) t.isLt))
  else outIdle

theorem outAt_C (c : Dev nD) (t : Fin cfg1.N) (h0 : ¬t.val % 4 = 0) (h1 : t.val % 4 = 3) :
    outAt V c t = outC c t h0 h1 (iblk1 V c 0 t) (iblk1 V c 1 t) (accAt V c (t.val - 1) (Nat.lt_of_le_of_lt (Nat.sub_le _ _) t.isLt)) :=
  dif_pos h1

/-! ## The invariant -/

/-- Before position `n`: before the first point what the launch hands the region; afterwards the other kernel's
    buffers, the scratch at what the point before left, and the generator register. -/
def PhiS (c : Dev nD) : (n : ℕ) → n ≤ cfg1.N → sProp 𝕄
  | 0, _ => Pipeline.ΦA spec1 c
  | n + 1, hn => iprop(withOthers c (owns (c : Thread nD τ) scM1_0 fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(withOthers c (owns (c : Thread nD τ) scM1_0 fullShare (accAt V c n hn)) ∗ (∃ r, prngReg c r)) := rfl

theorem PhiS_pos (c : Dev nD) (n : ℕ) (h : n ≤ cfg1.N) (hz : n ≠ 0) :
    PhiS V c n h = iprop(withOthers c (owns (c : Thread nD τ) scM1_0 fullShare (accAt V c (n - 1) (by omega))) ∗ (∃ r, prngReg c r)) := by
  cases n with
  | zero => exact absurd rfl hz
  | succ n => rfl

/-! ## The proof data -/

/-- Region 1's proof data on core `c`: the arrays as the region finds them; after the body each input's buffer
    at its block and the output's at `outAt`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end

section
variable (V : (c : Dev nD) → (b : Ref sig .tc) → Buf (Elt F) ((c : Thread nD τ).loc b))

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; `j = t mod 4` selects the case; the invariant hands
    the body the scratch at what the point before left (at anything before the first point, and a reset does not read
    it) and takes it back at this point's contents; where `j ≠ 3` the output buffer passes through untouched; the
    other kernel's buffers, the generator register and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h1 : t.val % 4 = 3
  · have h0 : ¬t.val % 4 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2, outAt_C V c t h0 h1]
    rw [accAt_C V c t h0 h1]
    unfold outC soutC; (try dsimp only)
    rw [PhiS_castSucc V c t, PhiS_pos V c _ _ hz]
    unfold withOthers
    iintro ⟨⟨⟨Hb0, Hb1, Hb2, Hb3, Hb4, HS0⟩, Hg⟩, Ho, ⟨%d0, H0⟩, ⟨%d1, H1⟩, ⟨%d2, H2⟩⟩
    iapply ((runC_at c t h0 h1 (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Hb0 Hb1 Hb2 Hb3 Hb4 HS0 Hg]
    · isplitl [Hb0 Hb1 Hb2 Hb3 Hb4 HS0]
      · isplitl [Hb0]; · iexact Hb0
        isplitl [Hb1]; · iexact Hb1
        isplitl [Hb2]; · iexact Hb2
        isplitl [Hb3]; · iexact Hb3
        isplitl [Hb4]; · iexact Hb4
        unfold owns; iexists _; isplitr
        swap; · iexact HS0
        ipureintro; exact View.read_writes_of_cover _ _ _ _ _ (scoverC c t h0 h1 _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (coverC c t h0 h1 _ _ _)
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [accAt_A V c t h0 h1]
      unfold soutA; (try dsimp only)
      by_cases hz : t.val = 0
      · rw [PhiS_castSucc V c t, PhiS_zero V c _ _ hz, PhiA1_eq]
        unfold withOthers
        iintro ⟨⟨⟨Hb0, Hb1, Hb2, Hb3, Hb4, HS0⟩, Hg⟩, Ho, ⟨%d0, H0⟩, ⟨%d1, H1⟩, ⟨%d2, H2⟩⟩
        iapply ((runA_at c t h0 h1 (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hb0 Hb1 Hb2 Hb3 Hb4 HS0 Hg]
        · isplitl [Hb0 Hb1 Hb2 Hb3 Hb4 HS0]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scoverA c t h0 h1 _ _)
          iexact Hg
        isplitl [Ho]; · iexact Ho
        isplitl [H0]; · iexact H0
        isplitl [H1]; · iexact H1
        iexists _; iexact H2
      · rw [PhiS_castSucc V c t, PhiS_pos V c _ _ hz]
        unfold withOthers
        iintro ⟨⟨⟨Hb0, Hb1, Hb2, Hb3, Hb4, HS0⟩, Hg⟩, Ho, ⟨%d0, H0⟩, ⟨%d1, H1⟩, ⟨%d2, H2⟩⟩
        iapply ((runA_at c t h0 h1 (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Hb0 Hb1 Hb2 Hb3 Hb4 HS0 Hg]
        · isplitl [Hb0 Hb1 Hb2 Hb3 Hb4 HS0]
          · isplitl [Hb0]; · iexact Hb0
            isplitl [Hb1]; · iexact Hb1
            isplitl [Hb2]; · iexact Hb2
            isplitl [Hb3]; · iexact Hb3
            isplitl [Hb4]; · iexact Hb4
            unfold owns; iexists _; isplitr
            swap; · iexact HS0
            ipureintro; exact View.read_writes_of_cover _ _ _ _ _ (scoverA c t h0 h1 _ _)
          iexact Hg
        isplitl [Ho]; · iexact Ho
        isplitl [H0]; · iexact H0
        isplitl [H1]; · iexact H1
        iexists _; iexact H2
    · have hz : t.val ≠ 0 := by omega
      rw [accAt_B V c t h0 h1]
      unfold soutB; (try dsimp only)
      rw [PhiS_castSucc V c t, PhiS_pos V c _ _ hz]
      unfold withOthers
      iintro ⟨⟨⟨Hb0, Hb1, Hb2, Hb3, Hb4, HS0⟩, Hg⟩, Ho, ⟨%d0, H0⟩, ⟨%d1, H1⟩, ⟨%d2, H2⟩⟩
      iapply ((runB_at c t h0 h1 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hb0 Hb1 Hb2 Hb3 Hb4 HS0 Hg]
      · isplitl [Hb0 Hb1 Hb2 Hb3 Hb4 HS0]
        · isplitl [Hb0]; · iexact Hb0
          isplitl [Hb1]; · iexact Hb1
          isplitl [Hb2]; · iexact Hb2
          isplitl [Hb3]; · iexact Hb3
          isplitl [Hb4]; · iexact Hb4
          unfold owns; iexists _; isplitr
          swap; · iexact HS0
          ipureintro; exact View.read_writes_of_cover _ _ _ _ _ (scoverB c t h0 h1 _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives back what the launch handed in: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold withOthers
  iintro ⟨⟨Hb0, Hb1, Hb2, Hb3, Hb4, HS0⟩, Hg⟩
  isplitl [Hb0 Hb1 Hb2 Hb3 Hb4 HS0]
  · isplitl [Hb0]; · iexact Hb0
    isplitl [Hb1]; · iexact Hb1
    isplitl [Hb2]; · iexact Hb2
    isplitl [Hb3]; · iexact Hb3
    isplitl [Hb4]; · iexact Hb4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end

end Cert.KernelIdeal.Hand

end
-- ==== Proof.KI.Boundary.lean ====
/-
  The buffer contents at each boundary of @main, as a fold from the launch memory: a stretch of host operations
  applies its operations; a region leaves its arrays at what its write-backs make of them and every other buffer
  as entered. Read back through the fold: no host operation and no region writes an argument, so both arguments
  end as launched; the result buffer ends at region 1's final output array.
-/
import proofs.«177038_j16552803959337_2_alg».proof.Proof.KI.Boundary0
import proofs.«177038_j16552803959337_2_alg».proof.Proof.KI.Pair

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched; the result is region 1's final output array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_v6 (c : Dev nD) : W4 m ρ c (Proc.devRef .tc main_v6) = (dat1 (V3 m ρ) c).arrAt 2 cfg1.N :=
  W4_arr m ρ c 2

end Cert.KernelIdeal.Hand

end
-- ==== Proof.KI.Run.lean ====
/-
  The whole run of @main: a stretch of host operations (the weight's columns regrouped), region 0 (the
  projection), a stretch of host operations (the projection reshaped and transposed), region 1 (the pairwise
  kernel). The buffer contents at each boundary are a fold from the launch memory: a stretch applies its
  operations; a region leaves its arrays at what its write-backs make of them and every other buffer as entered.
  Each region is a segment between the thread states "every unscoped buffer at the boundary's contents, the
  generator register at some state, nothing owed"; the launch theorem for several regions then gives: every weakly
  fair execution terminates without a fault, and the final memory holds every unscoped buffer at the last
  boundary's contents — in particular both arguments as launched and the result at region 1's final array.
-/
import proofs.«177038_j16552803959337_2_alg».proof.Proof.KI.Boundary

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 between "every unscoped buffer at `W1`" and "every unscoped buffer at `W2`": its arrays split out of
    the unscoped buffers and put back at their final contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between "every unscoped buffer at `W3`" and the last thread state: as region 0, except that its
    invariant starts as what the launch hands in (`hin1`) and gives that back after the last point (`hout1`), the
    accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    have hback := hout1 (V3 m ρ) c
    unfold Pipeline.ΦA at hback
    iintro H
    ihave H' := hback $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates,
    nothing faulting, and the final memory holds the result at region 1's final output array and both arguments as
    launched. -/
theorem run_all : θ_run defs (onTc (τ := τ) (main (F := F))) ⟨m, fun _ => 0, ρ⟩ (fun r => ∀ c : Dev nD,
      r.2.mem ((c.tc : Thread nD τ).loc main_v6) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v6 (by decide))).trans (W4_main_v6 m ρ c),
       (h c _ (mem_uc main_arg0 (by decide))).trans (W4_main_arg0 m ρ c),
       (h c _ (mem_uc main_arg1 (by decide))).trans (W4_main_arg1 m ρ c)⟩)

end Cert.KernelIdeal.Hand

end
-- ==== Proof.KI.PairPieces.lean ====
/-
  What each case of region 1's body leaves behind, as a value: the pieces the symbolic runs found, opened once.
  In every case the last store into the scratch covers it whole, and its payload is the body's one arithmetic term
  — the update `k1_pay1` of the accumulator the point started from, over the two input blocks as loaded —: from
  the scratch's contents as found (cases B and C), or from the reset value (case A, whose load reads back the zero
  splat just stored). In case C the output buffer receives a load of the scratch after that store: the same term.
-/
import proofs.«177038_j16552803959337_2_alg».proof.Proof.KI.Pair
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, however spelt. -/
theorem hz00 : (![0, 0] : Fin 2 → Nat) = fun _ => 0 := funext fun a => by fin_cases a <;> rfl
theorem hz000 : (![0, 0, 0] : Fin 3 → Nat) = fun _ => 0 := funext fun a => by fin_cases a <;> rfl
/-- Case B leaves in the scratch the update of what it found. -/
theorem soutB_eq (c : Dev nD) (t : Fin cfg1.N) (h0 : ¬t.val % 4 = 0) (h1 : ¬t.val % 4 = 3) (x0 : Vec F S128x5x100 .f32) (x1 : Vec F S5x100x128 .f32) (xs0 : Vec F S128x100 .f32) :
    soutB c t h0 h1 x0 x1 xs0 = k1_pay1 (k1_pay3 x0) (k1_pay4 x1) (k1_pay5 x0 x1) (k1_pay6 x1) (k1_pay7 x0) xs0 := by
  unfold soutB
  rw [View.read_writes_eq_canon _ _ _ (scoverB c t h0 h1 x0 x1 xs0)]
  unfold runB_at kernelRun1_B
  dsimp only
  sl_unfold_words
  first | rw [View.canon_unit_zero hz00] | rw [View.canon_cons_unit_zero hz00]
  try rw [View.readCov_unit_zero (h := hz00)]
  simp only [View.readAt_eq_ld, Memref.IsWhole.read_unread, View.ld_unit_zero (S := S128x5x100) hz000, View.ld_unit_zero (S := S5x100x128) hz000, View.ld_unit_zero (S := S128x100) hz00]
  exact congrArg (k1_pay1 (k1_pay3 x0) (k1_pay4 x1) (k1_pay5 x0 x1) (k1_pay6 x1) (k1_pay7 x0)) (Memref.IsWhole.read_unread (Memref.isWhole_whole cc1_scratch0) xs0)
/-- Case C leaves in the scratch the update of what it found, -/
theorem soutC_eq (c : Dev nD) (t : Fin cfg1.N) (h0 : ¬t.val % 4 = 0) (h1 : t.val % 4 = 3) (x0 : Vec F S128x5x100 .f32) (x1 : Vec F S5x100x128 .f32) (xs0 : Vec F S128x100 .f32) :
    soutC c t h0 h1 x0 x1 xs0 = k1_pay1 (k1_pay3 x0) (k1_pay4 x1) (k1_pay5 x0 x1) (k1_pay6 x1) (k1_pay7 x0) xs0 := by
  unfold soutC
  rw [View.read_writes_eq_canon _ _ _ (scoverC c t h0 h1 x0 x1 xs0)]
  unfold runC_at kernelRun1_C
  dsimp only
  sl_unfold_words
  first | rw [View.canon_unit_zero hz00] | rw [View.canon_cons_unit_zero hz00]
  try rw [View.readCov_unit_zero (h := hz00)]
  simp only [View.readAt_eq_ld, Memref.IsWhole.read_unread, View.ld_unit_zero (S := S128x5x100) hz000, View.ld_unit_zero (S := S5x100x128) hz000, View.ld_unit_zero (S := S128x100) hz00]
  exact congrArg (k1_pay1 (k1_pay3 x0) (k1_pay4 x1) (k1_pay5 x0 x1) (k1_pay6 x1) (k1_pay7 x0)) (Memref.IsWhole.read_unread (Memref.isWhole_whole cc1_scratch0) xs0)
/-- and copies exactly that to the output buffer. -/
theorem outC_eq (c : Dev nD) (t : Fin cfg1.N) (h0 : ¬t.val % 4 = 0) (h1 : t.val % 4 = 3) (x0 : Vec F S128x5x100 .f32) (x1 : Vec F S5x100x128 .f32) (xs0 : Vec F S128x100 .f32) :
    outC c t h0 h1 x0 x1 xs0 = k1_pay1 (k1_pay3 x0) (k1_pay4 x1) (k1_pay5 x0 x1) (k1_pay6 x1) (k1_pay7 x0) xs0 := by
  unfold outC
  rw [View.read_writes_eq_canon _ _ _ (coverC c t h0 h1 x0 x1 xs0)]
  unfold runC_at kernelRun1_C
  dsimp only
  sl_unfold_words
  first | rw [View.canon_unit_zero hz00] | rw [View.canon_cons_unit_zero hz00]
  try rw [View.readCov_unit_zero (h := hz00)]
  simp only [View.readAt_eq_ld, Memref.IsWhole.read_unread, View.ld_unit_zero (S := S128x5x100) hz000, View.ld_unit_zero (S := S5x100x128) hz000, View.ld_unit_zero (S := S128x100) hz00]
  exact congrArg (k1_pay1 (k1_pay3 x0) (k1_pay4 x1) (k1_pay5 x0 x1) (k1_pay6 x1) (k1_pay7 x0)) (Memref.IsWhole.read_unread (Memref.isWhole_whole cc1_scratch0) xs0)
/-- Case A leaves in the scratch the update of the reset accumulator: the scratch's earlier contents are not read. -/
theorem soutA_eq (c : Dev nD) (t : Fin cfg1.N) (h0 : t.val % 4 = 0) (h1 : ¬t.val % 4 = 3) (x0 : Vec F S128x5x100 .f32) (x1 : Vec F S5x100x128 .f32) :
    soutA c t h0 h1 x0 x1 = k1_pay1 (k1_pay3 x0) (k1_pay4 x1) (k1_pay5 x0 x1) (k1_pay6 x1) (k1_pay7 x0) (k1_pay2 (F := F)) := by
  unfold soutA
  rw [View.read_writes_eq_canon _ _ _ (scoverA c t h0 h1 x0 x1)]
  unfold runA_at kernelRun1_A
  dsimp only
  sl_unfold_words
  first | rw [View.canon_unit_zero hz00] | rw [View.canon_cons_unit_zero hz00]
  try rw [View.readCov_unit_zero (h := hz00)]
  simp only [View.readAt_eq_ld, Memref.IsWhole.read_unread, View.ld_unit_zero (S := S128x5x100) hz000, View.ld_unit_zero (S := S5x100x128) hz000, View.ld_unit_zero (S := S128x100) hz00]

end Cert.KernelIdeal.Hand

end
-- ==== Proof.Spec.lean ====
/-
  The function both programs compute, on the extended reals.

  From a 512 × 1024 matrix `a` and a 1024 × 500 matrix `b`, whose 500 columns are 100 groups `k` of 5
  consecutive columns `d` (column `5k + d`):
  * `proj a b r k d` — entry `(r, 5k + d)` of the product `a · b`, the sum over the 1024 contracted positions;
  * `dist a b i j k` — the L1 distance over `d` between rows `i` and `j` in group `k`, an absolute value being
    `max x (-x)`;
  * `feat a b i k` — the sum over all 512 rows `j` of `exp (-dist i j k)`;
  * `G a b` — `feat` as a 512 × 100 array.
-/
import Idealize.ShloMosaic.PureOps.Ideal
import Idealize.ShloMosaic.Lib.ValueIdx

noncomputable section

namespace Cert.Spec

open Idealize.ShloMosaic Idealize.ShloMosaic.ValueIdx
open scoped BigOperators

/-- Column `5k + d` of the product: feature `d` of group `k`. -/
def col (k : Fin 100) (d : Fin 5) : Fin 500 := ⟨k.val * 5 + d.val, by have := k.isLt; have := d.isLt; omega⟩

/-- Entry `(r, 5k + d)` of `a · b`. -/
def proj (a : (⟨2, ![512, 1024]⟩ : Shape).Idx → EReal) (b : (⟨2, ![1024, 500]⟩ : Shape).Idx → EReal)
    (r : Fin 512) (k : Fin 100) (d : Fin 5) : EReal :=
  ∑ f : Fin 1024, a (ix2 r f) * b (ix2 f (col k d))

/-- The absolute value of an extended real. -/
def eabs (x : EReal) : EReal := max x (-x)

/-- The L1 distance over the 5 features between rows `i` and `j`, in group `k`. -/
def dist (a : (⟨2, ![512, 1024]⟩ : Shape).Idx → EReal) (b : (⟨2, ![1024, 500]⟩ : Shape).Idx → EReal)
    (i j : Fin 512) (k : Fin 100) : EReal :=
  ∑ d : Fin 5, eabs (proj a b i k d - proj a b j k d)

/-- Row `i`'s feature in group `k`: the sum over every row `j` of `exp (-dist i j k)`. -/
def feat (a : (⟨2, ![512, 1024]⟩ : Shape).Idx → EReal) (b : (⟨2, ![1024, 500]⟩ : Shape).Idx → EReal)
    (i : Fin 512) (k : Fin 100) : EReal :=
  ∑ j : Fin 512, Ideal.exp (-(dist a b i j k))

/-- The 512 × 100 result array. -/
def G (a : (⟨2, ![512, 1024]⟩ : Shape).Idx → EReal) (b : (⟨2, ![1024, 500]⟩ : Shape).Idx → EReal) :
    (⟨2, ![512, 100]⟩ : Shape).Idx → EReal :=
  fun y => feat a b (y 0) (y 1)

theorem G_apply (a : (⟨2, ![512, 1024]⟩ : Shape).Idx → EReal) (b : (⟨2, ![1024, 500]⟩ : Shape).Idx → EReal)
    (i : Fin 512) (k : Fin 100) : G a b (ix2 i k) = feat a b i k := rfl

end Cert.Spec

end
-- ==== Proof.SpecLaws.lean ====
/-
  Laws of the extended reals for the sign-folded distance and the tiled row sum.

  An absolute value `max x (-x)` is never negative, so it is never `⊥`; that is the side condition under
  which a negation distributes over a sum of extended reals (`-(x + y) = -x - y` fails only when the two
  summands are opposite infinities). Hence subtracting the five absolute values one after the other from `0`
  gives minus their sum. The sum over the 512 rows is the sum over four tiles of 128 lanes, row `t·128 + l`
  being lane `l` of tile `t`: only commutativity and associativity of addition are used.
-/
import proofs.«177038_j16552803959337_2_alg».proof.Proof.Spec
import Mathlib.Data.EReal.Operations
import Mathlib.Algebra.BigOperators.Fin
import Mathlib.Logic.Equiv.Fin.Basic

noncomputable section

namespace Cert.Spec

open scoped BigOperators

/-- An absolute value is not negative. -/
theorem eabs_nonneg (x : EReal) : 0 ≤ eabs x := by
  unfold eabs
  rcases le_total 0 x with h | h
  · exact le_max_of_le_left h
  · exact le_max_of_le_right (EReal.neg_nonneg.mpr h)

/-- A value that is not negative is not `⊥`. -/
theorem ne_bot_of_nonneg {x : EReal} (h : 0 ≤ x) : x ≠ ⊥ := by
  intro hx
  rw [hx] at h
  exact absurd h (by simp)

/-- Subtracting a non-negative value from minus a non-negative value: `-s - y = -(s + y)`. -/
theorem neg_sub_of_nonneg {s y : EReal} (hs : 0 ≤ s) (hy : 0 ≤ y) : -s - y = -(s + y) :=
  (EReal.neg_add (Or.inl (ne_bot_of_nonneg hs)) (Or.inr (ne_bot_of_nonneg hy))).symm

/-- The five absolute values subtracted from `0` one after the other are minus their sum. -/
theorem neg_dist_chain (f : Fin 5 → EReal) :
    ((((0 - eabs (f 0)) - eabs (f 1)) - eabs (f 2)) - eabs (f 3)) - eabs (f 4) = -(∑ d : Fin 5, eabs (f d)) := by
  have h0 := eabs_nonneg (f 0)
  have h1 := eabs_nonneg (f 1)
  have h2 := eabs_nonneg (f 2)
  have h3 := eabs_nonneg (f 3)
  have h4 := eabs_nonneg (f 4)
  have s1 : 0 ≤ eabs (f 0) + eabs (f 1) := add_nonneg h0 h1
  have s2 : 0 ≤ eabs (f 0) + eabs (f 1) + eabs (f 2) := add_nonneg s1 h2
  have s3 : 0 ≤ eabs (f 0) + eabs (f 1) + eabs (f 2) + eabs (f 3) := add_nonneg s2 h3
  rw [Fin.sum_univ_five, zero_sub, neg_sub_of_nonneg h0 h1, neg_sub_of_nonneg s1 h2, neg_sub_of_nonneg s2 h3,
    neg_sub_of_nonneg s3 h4]

/-- Row `t·128 + l` of the 512: lane `l` of tile `t`. -/
def tileRow (t : Fin 4) (l : Fin 128) : Fin 512 := ⟨t.val * 128 + l.val, by have := t.isLt; have := l.isLt; omega⟩

/-- Tiles and lanes enumerate the 512 rows once each. -/
def tileEquiv : Fin 4 × Fin 128 ≃ Fin 512 where
  toFun p := tileRow p.1 p.2
  invFun j := (⟨j.val / 128, by have := j.isLt; omega⟩, ⟨j.val % 128, Nat.mod_lt _ (by decide)⟩)
  left_inv p := by
    obtain ⟨t, l⟩ := p
    have ht := t.isLt; have hl := l.isLt
    refine Prod.ext (Fin.ext ?_) (Fin.ext ?_)
    · show (t.val * 128 + l.val) / 128 = t.val; omega
    · show (t.val * 128 + l.val) % 128 = l.val; omega
  right_inv j := by
    refine Fin.ext ?_
    show j.val / 128 * 128 + j.val % 128 = j.val; omega

/-- The sum over the four tiles of the sums over their 128 lanes is the sum over the 512 rows. -/
theorem sum_tiles (g : Fin 512 → EReal) : ∑ t : Fin 4, ∑ l : Fin 128, g (tileRow t l) = ∑ j : Fin 512, g j := by
  rw [← Equiv.sum_comp tileEquiv g, Fintype.sum_prod_type]
  rfl

/-- The same with the four tile sums added one after the other onto `0`. -/
theorem sum_tiles_acc (g : Fin 512 → EReal) :
    (((0 + ∑ l : Fin 128, g (tileRow 0 l)) + ∑ l : Fin 128, g (tileRow 1 l)) + ∑ l : Fin 128, g (tileRow 2 l))
      + ∑ l : Fin 128, g (tileRow 3 l) = ∑ j : Fin 512, g j := by
  rw [← sum_tiles g, Fin.sum_univ_four, zero_add]

end Cert.Spec

end
-- ==== Proof.KI.PairPayload.lean ====
/-
  The pairwise kernel's arithmetic read at an index, on the extended reals.

  One grid point holds a tile of 128 rows `p` (as a 128 × 5 × 100 array: row, feature `d`, group `k`) and a tile
  of 128 other rows `l` (as a 5 × 100 × 128 array: feature, group, lane). For each feature it cuts the two
  slices, spreads the row slice over the lanes and the lane slice over the rows, and subtracts the absolute
  differences one after the other from `0`; it exponentiates, sums over the lanes and adds the sum to the
  accumulator. Every layout operation reads one entry of its operand, so at `(p, k)` the update adds
  `∑ l, exp (-(∑ d, |x0 (p, d, k) - x1 (d, k, l)|))`: the chain of subtractions is minus the sum because an
  absolute value is never `⊥`.
-/
import proofs.«177038_j16552803959337_2_alg».proof.Proof.Gen.KernelIdeal.Skeleton
import proofs.«177038_j16552803959337_2_alg».proof.Proof.SpecLaws
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

variable {F : FTy → Type} [FloatOps F]

/-- One point's update of the accumulator: from the row tile `x0` [128,5,100], the other-row tile `x1` [5,100,128] and
    the accumulator `s` [128,100]. -/
def accNext (x0 : Vec F S128x5x100 .f32) (x1 : Vec F S5x100x128 .f32) (s : Vec F S128x100 .f32) : Vec F S128x100 .f32 :=
  k1_pay1 (k1_pay3 x0) (k1_pay4 x1) (k1_pay5 x0 x1) (k1_pay6 x1) (k1_pay7 x0) s

/-! ## The layout operations at an index -/

section Layout
variable {α : Type}

/-- Feature `d` of the row tile spread over the lanes: entry `(p, k, l)` is the tile's entry `(p, d, k)`. -/
theorem rowSpread_apply (o : Nat) (x : S128x5x100.Idx → α) (hs : S128x5x100.Slices ![0, o, 0] S128x1x100)
    (h1 : S128x1x100.ShapeCasts S128x100) (h2 : S128x100.ShapeCasts S128x100x1) (hb : S128x100x1.Broadcasts S128x100x128)
    (p : Fin 128) (k : Fin 100) (l : Fin 128) (d : Fin 5) (hd : d.val = o) :
    broadcastTo S128x100x128 (shapeCast S128x100x1 (shapeCast S128x100 (extractStridedSlice S128x1x100 ![0, o, 0] x hs) h1) h2) hb
      (ix3 p k l) = x (ix3 p d k) := by
  refine (broadcastTo_apply _ hb (ix3 p k l) (ix3 p k (0 : Fin 1)) fun a => ?_).trans ?_
  · match a with
    | ⟨0, _⟩ => show p.val = if (128 : Nat) = 1 then 0 else p.val; rfl
    | ⟨1, _⟩ => show k.val = if (100 : Nat) = 1 then 0 else k.val; rfl
    | ⟨2, _⟩ => show (0 : Nat) = if (1 : Nat) = 1 then 0 else l.val; rfl
  refine (shapeCast_apply _ h2 (ix3 p k (0 : Fin 1)) (ix2 p k) ?_).trans ?_
  · rw [Shape.rowMajor_val_three, Shape.rowMajor_val_two]
    show p.val * 100 + k.val = (p.val * 100 + k.val) * 1 + 0
    omega
  refine (shapeCast_apply _ h1 (ix2 p k) (ix3 p (0 : Fin 1) k) ?_).trans ?_
  · rw [Shape.rowMajor_val_three, Shape.rowMajor_val_two]
    show (p.val * 1 + 0) * 100 + k.val = p.val * 100 + k.val
    omega
  exact slice3_axis1_apply o x hs p (0 : Fin 1) k d (by show d.val = o + 0; omega)

/-- Feature `d` of the other-row tile as one row block: entry `(0, k, l)` is the tile's entry `(d, k, l)`. -/
theorem laneRow_apply (o : Nat) (x : S5x100x128.Idx → α) (hs : S5x100x128.Slices ![o, 0, 0] S1x100x128)
    (h1 : S1x100x128.ShapeCasts S100x128) (h2 : S100x128.ShapeCasts S1x100x128)
    (u : Fin 1) (k : Fin 100) (l : Fin 128) (d : Fin 5) (hd : d.val = o) :
    shapeCast S1x100x128 (shapeCast S100x128 (extractStridedSlice S1x100x128 ![o, 0, 0] x hs) h1) h2 (ix3 u k l)
      = x (ix3 d k l) := by
  refine (shapeCast_ab_1ab_apply _ h2 u k l).trans ?_
  refine (shapeCast_1ab_ab_apply _ h1 k l).trans ?_
  exact extractStridedSlice_apply _ x hs (ix3 (0 : Fin 1) k l) (ix3 d k l) fun a => by
    match a with
    | ⟨0, _⟩ => show d.val = o + 0; omega
    | ⟨1, _⟩ => exact (Nat.zero_add _).symm
    | ⟨2, _⟩ => exact (Nat.zero_add _).symm

/-- A one-row block spread over the 128 rows: entry `(p, k, l)` is the block's entry `(0, k, l)`. -/
theorem laneSpread_apply (v : S1x100x128.Idx → α) (hb : S1x100x128.Broadcasts S128x100x128)
    (p : Fin 128) (k : Fin 100) (l : Fin 128) :
    broadcastTo S128x100x128 v hb (ix3 p k l) = v (ix3 (0 : Fin 1) k l) := by
  refine broadcastTo_apply v hb (ix3 p k l) (ix3 (0 : Fin 1) k l) fun a => ?_
  match a with
  | ⟨0, _⟩ => show (0 : Nat) = if (1 : Nat) = 1 then 0 else p.val; rfl
  | ⟨1, _⟩ => show k.val = if (100 : Nat) = 1 then 0 else k.val; rfl
  | ⟨2, _⟩ => show l.val = if (128 : Nat) = 1 then 0 else l.val; rfl

end Layout

/-! ## The pointwise operations and the lane sum at an index -/

theorem exp_at (v : FVec Ideal S128x100x128 .f32) (i : S128x100x128.Idx) : exp v i = Ideal.exp (v i) := rfl

theorem absf_at (v : FVec Ideal S128x100x128 .f32) (i : S128x100x128.Idx) : absf v i = Cert.Spec.eabs (v i) := rfl

/-- The zero word spread over the tile is `0` everywhere. -/
theorem zeroSplat_at (i : S128x100x128.Idx) :
    broadcast S128x100x128 (Scalar.ofBits (F := Ideal) .f32 0x00000000#32) i = 0 :=
  Ideal.ofBits_zero_f32

/-- The sum over the lanes, from a zero accumulator: at `(p, k)` the sum over `l` of the entries `(p, k, l)`. -/
theorem laneSum_apply (v : FVec Ideal S128x100x128 .f32) (h : S128x100x128.Reduces [2] S128x100) (hφ : FKind.Formats .f32)
    (hacc : (0x00000000#32 : BitVec 32) = FKind.add.neutral .f32 hφ) (p : Fin 128) (k : Fin 100) :
    multiReduction .add [2] S128x100 v 0x00000000#32 h hφ hacc (ix2 p k) = ∑ l : Fin 128, v (ix3 p k l) := by
  refine (Ideal.multiReduction_add_single v 0x00000000#32 h hφ hacc (ix2 p k)).trans ?_
  show ∑ l : Fin 128, v (h.lift (ix2 p k) l) = _
  refine Finset.sum_congr rfl fun l _ => congrArg v ?_
  exact funext fun a => Fin.ext (by match a with | ⟨0, _⟩ => rfl | ⟨1, _⟩ => rfl | ⟨2, _⟩ => rfl)

/-! ## The payloads at an index -/

theorem pay3_eq (x0 : Vec Ideal S128x5x100 .f32) : k1_pay3 x0 = x0 := by
  unfold k1_pay3
  exact shapeCast_self _ _

theorem pay4_eq (x1 : Vec Ideal S5x100x128 .f32) : k1_pay4 x1 = x1 := by
  unfold k1_pay4
  exact shapeCast_self _ _

/-- Feature 3 of the other-row tile, as a one-row block. -/
theorem pay6_apply (x1 : Vec Ideal S5x100x128 .f32) (u : Fin 1) (k : Fin 100) (l : Fin 128) :
    k1_pay6 x1 (ix3 u k l) = x1 (ix3 (3 : Fin 5) k l) := by
  unfold k1_pay6
  rw [pay4_eq]
  exact laneRow_apply 3 x1 _ _ _ u k l 3 rfl

/-- Feature 3 of the row tile, spread over the lanes. -/
theorem pay7_apply (x0 : Vec Ideal S128x5x100 .f32) (p : Fin 128) (k : Fin 100) (l : Fin 128) :
    k1_pay7 x0 (ix3 p k l) = x0 (ix3 p (3 : Fin 5) k) := by
  unfold k1_pay7
  rw [pay3_eq]
  exact rowSpread_apply 3 x0 _ _ _ _ p k l 3 rfl

/-- The first three absolute differences subtracted from `0`. -/
theorem pay5_apply (x0 : Vec Ideal S128x5x100 .f32) (x1 : Vec Ideal S5x100x128 .f32) (p : Fin 128) (k : Fin 100) (l : Fin 128) :
    k1_pay5 x0 x1 (ix3 p k l)
      = ((0 - Cert.Spec.eabs (x0 (ix3 p (0 : Fin 5) k) - x1 (ix3 (0 : Fin 5) k l)))
          - Cert.Spec.eabs (x0 (ix3 p (1 : Fin 5) k) - x1 (ix3 (1 : Fin 5) k l)))
          - Cert.Spec.eabs (x0 (ix3 p (2 : Fin 5) k) - x1 (ix3 (2 : Fin 5) k l)) := by
  unfold k1_pay5
  rw [pay3_eq, pay4_eq]
  simp only [subf_apply, absf_at, zeroSplat_at, laneSpread_apply]
  rw [rowSpread_apply 0 x0 _ _ _ _ p k l 0 rfl, rowSpread_apply 1 x0 _ _ _ _ p k l 1 rfl,
    rowSpread_apply 2 x0 _ _ _ _ p k l 2 rfl, laneRow_apply 0 x1 _ _ _ _ k l 0 rfl,
    laneRow_apply 1 x1 _ _ _ _ k l 1 rfl, laneRow_apply 2 x1 _ _ _ _ k l 2 rfl]

/-- The last two differences, the exponential, the lane sum and the addition, over any values of the earlier payloads. -/
theorem pay1_apply (v4 : FVec Ideal S128x5x100 .f32) (v6 : FVec Ideal S5x100x128 .f32) (v40 : FVec Ideal S128x100x128 .f32)
    (v46 : FVec Ideal S1x100x128 .f32) (v47 : FVec Ideal S128x100x128 .f32) (s : Vec Ideal S128x100 .f32)
    (p : Fin 128) (k : Fin 100) :
    k1_pay1 v4 v6 v40 v46 v47 s (ix2 p k)
      = s (ix2 p k) + ∑ l : Fin 128, Ideal.exp
          ((v40 (ix3 p k l) - Cert.Spec.eabs (v47 (ix3 p k l) - v46 (ix3 (0 : Fin 1) k l)))
            - Cert.Spec.eabs (v4 (ix3 p (4 : Fin 5) k) - v6 (ix3 (4 : Fin 5) k l))) := by
  unfold k1_pay1
  simp only [shapeCast_self, addf_apply]
  refine congrArg (s (ix2 p k) + ·) ?_
  refine (laneSum_apply _ _ _ _ p k).trans ?_
  refine Finset.sum_congr rfl fun l _ => ?_
  simp only [exp_at, subf_apply, absf_at, laneSpread_apply]
  rw [rowSpread_apply 4 v4 _ _ _ _ p k l 4 rfl, laneRow_apply 4 v6 _ _ _ _ k l 4 rfl]

/-! ## The update and the initial value -/

/-- One point's update adds, at row `p` and group `k`, the sum over the 128 lanes `l` of `exp` of minus the L1
    distance over the 5 features between row `p` of the row tile and lane `l` of the other tile. -/
theorem accNext_apply (x0 : Vec Ideal S128x5x100 .f32) (x1 : Vec Ideal S5x100x128 .f32) (s : Vec Ideal S128x100 .f32)
    (p : Fin 128) (k : Fin 100) :
    accNext x0 x1 s (ix2 p k)
      = s (ix2 p k) + ∑ l : Fin 128, Ideal.exp (-(∑ d : Fin 5, Cert.Spec.eabs (x0 (ix3 p d k) - x1 (ix3 d k l)))) := by
  unfold accNext
  rw [pay1_apply]
  refine congrArg (s (ix2 p k) + ·) (Finset.sum_congr rfl fun l _ => congrArg Ideal.exp ?_)
  rw [pay5_apply, pay6_apply, pay7_apply, pay3_eq, pay4_eq]
  exact Cert.Spec.neg_dist_chain (fun d : Fin 5 => x0 (ix3 p d k) - x1 (ix3 d k l))

/-- The accumulator's initial value is `0` everywhere. -/
theorem pay2_apply (p : Fin 128) (k : Fin 100) : k1_pay2 (F := Ideal) (ix2 p k) = 0 := by
  unfold k1_pay2
  simp only [shapeCast_self]
  exact Ideal.ofBits_zero_f32

end Cert.KernelIdeal.Hand

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.KI.MatmulValue.lean ====
/- Region 0's output block at the ideal values: entry (p, q) of what the matmul body leaves in the output window's
   buffer is the sum over the contracted coordinate f of x0(p, f) · x1(f, q), for the two input blocks x0, x1. -/
import proofs.«177038_j16552803959337_2_alg».proof.Proof.KI.Matmul
import proofs.«177038_j16552803959337_2_alg».proof.Proof.LibPlainDot
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx
open scoped BigOperators

/-- The zero offsets of a rank-2 rectangle, as the constant function. -/
theorem hz2 : (![0, 0] : Fin 2 → Nat) = fun _ => 0 := funext fun a => by fin_cases a <;> rfl

/-- The printed dimension record of the body's product is the plain one: rows by contraction, contraction by
    columns, no batch axis. -/
theorem dot0_eq_plain : dot_S256x1024_S1024x500_S256x500_1_0_0_1_n_n = DotDims.plain 256 1024 500 := rfl

/-- Entry (p, q) of the output block: the one store is over the whole buffer, so the buffer is its payload; the two
    loads are of the whole input buffers, so they read the blocks; at the ideal values rounding to bf16 is the
    identity and so is a reshape to the same shape, and the product accumulated into the zero splat is the plain
    sum of products. -/
theorem mmOut_apply (x0 : Vec Ideal S256x1024 .f32) (x1 : Vec Ideal S1024x500 .f32) (p : Fin 256) (q : Fin 500) :
    mmOut x0 x1 (ix2 p q) = ∑ f : Fin 1024, x0 (ix2 p f) * x1 (ix2 f q) := by
  unfold mmOut
  rw [View.canon_unit_zero hz2]
  simp only [View.ld_unit_zero (S := S256x1024) hz2, View.ld_unit_zero (S := S1024x500) hz2]
  unfold k0_pay1
  refine (Cert.LibPlainDot.matmul_plain_zero_apply dot_S256x1024_S1024x500_S256x500_1_0_0_1_n_n dot0_eq_plain none _ _ p q).trans ?_
  refine Finset.sum_congr rfl fun f _ => ?_
  rw [truncf_apply, truncf_apply, shapeCast_self]

end Cert.KernelIdeal.Hand

end
-- ==== Proof.KI.ProjValue.lean ====
/- What region 1 is entered with, at the ideal values: the projection of the inputs in its two layouts.
   The first host stretch regroups the right operand's 500 columns (column 5k + d moves to position 100d + k); the
   matmul region then leaves, in two row blocks, the product of the left operand by the regrouped right operand; the
   second host stretch reads that 512 x 500 array as 512 x 5 x 100 and also moves the row axis last. Entry by entry
   each of these is the sum over the 1024 contracted positions of a(r, f) · b(f, 5k + d). -/
import proofs.«177038_j16552803959337_2_alg».proof.Proof.KI.Boundary0
import proofs.«177038_j16552803959337_2_alg».proof.Proof.KI.MatmulValue
import proofs.«177038_j16552803959337_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The first host stretch: the left operand untouched, the right operand regrouped -/

/-- No operation of the first stretch writes the left operand: region 0 finds it as launched. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))).trans rfl

/-- The regrouped right operand as the stretch's three operations of the launched one: read as 1024 x 100 x 5, the
    last two axes exchanged, read back as 1024 x 500. -/
theorem V1_main_v2_term (c : Dev nD) :
    (V1 m ρ c main_v2 : S1024x500.Idx → EReal)
      = shapeCast S1024x500 (transpose S1024x5x100 [0, 2, 1]
          (shapeCast S1024x100x5 (m ((c : Thread nD τ).loc main_arg1) : S1024x500.Idx → EReal) shapeCasts_S1024x500_S1024x100x5)
          transposes_S1024x100x5_S1024x5x100_0_2_1) shapeCasts_S1024x5x100_S1024x500 := by
  dsimp only [V1, W1, hostOps0]; after_results; rfl

/-- Position 100d + k of row f of the regrouped right operand is column 5k + d of row f of the launched one. -/
theorem V1_main_v2 (c : Dev nD) (f : Fin 1024) (d : Fin 5) (k : Fin 100) :
    V1 m ρ c main_v2 (ix2 f ⟨d.val * 100 + k.val, by have := d.isLt; have := k.isLt; omega⟩)
      = m ((c : Thread nD τ).loc main_arg1) (ix2 f (Cert.Spec.col k d)) := by
  have hd := d.isLt; have hk := k.isLt; have hf := f.isLt
  refine (congrFun (V1_main_v2_term m ρ c) _).trans ?_
  refine (shapeCast_apply _ shapeCasts_S1024x5x100_S1024x500 _ (ix3 f d k) (by
    rewrite [Shape.rowMajor_val_two, Shape.rowMajor_val_three]
    show (f.val * 5 + d.val) * 100 + k.val = f.val * 500 + (d.val * 100 + k.val); omega)).trans ?_
  refine (transpose_apply [0, 2, 1] _ transposes_S1024x100x5_S1024x5x100_0_2_1 (ix3 f d k) (ix3 f k d) (fun b => match b with
    | ⟨0, _⟩ => rfl
    | ⟨1, _⟩ => rfl
    | ⟨2, _⟩ => rfl)).trans ?_
  exact shapeCast_apply _ shapeCasts_S1024x500_S1024x100x5 (ix3 f k d) (ix2 f (Cert.Spec.col k d)) (by
    rewrite [Shape.rowMajor_val_two, Shape.rowMajor_val_three]
    show f.val * 500 + (k.val * 5 + d.val) = (f.val * 100 + k.val) * 5 + d.val; omega)

/-! ## Region 0's output array: the product, from its two row blocks -/

/-- The product of a 512 x 1024 array by a 1024 x 500 array, entry by entry. -/
def prodArr (a : S512x1024.Idx → EReal) (b : S1024x500.Idx → EReal) : S512x500.Idx → EReal :=
  fun i => ∑ f : Fin 1024, a (ix2 (i 0) f) * b (ix2 f (i 1))

/-- The printed index maps over the two grid points: the left operand's row block moves with the output's, both
    start at column 0, the right operand's one block is the whole array, and there are two row blocks. -/
theorem mm_index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 1 :=
  (by decide +kernel : ∀ t : Fin grid0.N, _)

/-- Each of the two row blocks of the output is some grid point's. -/
theorem mm_index_onto : ∀ q0 : Fin 2, ∃ t : Fin cfg0.N, win0_2.index t = ![q0.val, 0] :=
  (by decide +kernel : ∀ q0 : Fin 2, ∃ t : Fin grid0.N, win0_2.index t = ![q0.val, 0])

/-- The body's output block at an entry, when row p of the left block is row i0 of the array a and column q of the
    right block is column i1 of the array b: the product's entry (i0, i1). -/
theorem mmOut_of_rows (x0 : Vec Ideal S256x1024 .f32) (x1 : Vec Ideal S1024x500 .f32)
    (a : S512x1024.Idx → EReal) (b : S1024x500.Idx → EReal) (p : Fin 256) (q : Fin 500) (i : S512x500.Idx)
    (h0 : ∀ f : Fin 1024, x0 (ix2 p f) = a (ix2 (i 0) f)) (h1 : ∀ f : Fin 1024, x1 (ix2 f q) = b (ix2 f (i 1))) :
    mmOut x0 x1 (ix2 p q) = prodArr a b i := by
  rw [mmOut_apply]
  exact Finset.sum_congr rfl fun f _ => by rw [h0, h1]

/-- What grid point t writes back is block t of the product of the two arrays as the region finds them. -/
theorem mm_flushed_eq (c : Dev nD) (t : Fin cfg0.N) :
    (dat0 (V1 m ρ) c).flushed 2 t
      = ((cfg0.win 2).blk t).view.read (Elt Ideal) (prodArr (V1 m ρ c main_arg0) (V1 m ρ c main_v2)) := by
  show (cfg0.win 2).cut (grid0.coords t) ((dat0 (V1 m ρ) c).after 2 t) = _
  rw [after0_2]
  obtain ⟨e0, e1, e2, e3, e4, e5⟩ := mm_index_facts t
  funext j
  obtain ⟨p, q, rfl⟩ : ∃ (p : Fin 256) (q : Fin 500), j = ix2 p q := ⟨j 0, j 1, eq_ix2 j⟩
  refine mmOut_of_rows _ _ _ _ p q _ (fun f => ?_) (fun f => ?_)
  · show V1 m ρ c main_arg0 (((cfg0.win 0).blk t).view.emb (ix2 p f)) = V1 m ρ c main_arg0 _
    refine congrArg _ (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 1024 + 1 * f.val = f.val; omega
  · show V1 m ρ c main_v2 (((cfg0.win 1).blk t).view.emb (ix2 f q)) = V1 m ρ c main_v2 _
    refine congrArg _ (funext fun a => Fin.ext ?_)
    match a with
    | ⟨0, _⟩ => show win0_1.index t (0 : Fin 2) * 1024 + 1 * f.val = f.val; omega
    | ⟨1, _⟩ => show win0_1.index t (1 : Fin 2) * 500 + 1 * q.val = win0_2.index t (1 : Fin 2) * 500 + 1 * q.val; omega

/-- An index of the output array is in point t's block iff each coordinate is in the block's range on its axis. -/
theorem mm_mem_blk (t : Fin cfg0.N) (i : S512x500.Idx) :
    i ∈ ((cfg0.win 2).blk t).view.set ↔ ∀ a : Fin 2, win0_2.index t a * S256x500.size a ≤ (i a).val ∧ (i a).val < win0_2.index t a * S256x500.size a + S256x500.size a := by
  show i ∈ ((View.whole main_v3).slice (win0_2.rect t)).set ↔ _
  rw [View.set_slice_whole, Rect.mem_set_unit]
  exact Iff.rfl

/-- The two row blocks cover the output array: row r is in the block of the point whose block index is r / 256. -/
theorem mm_cover (i : S512x500.Idx) :
    ∃ t : Fin cfg0.N, (cfg0.win 2).flush t = true ∧ i ∈ ((cfg0.win 2).blk t).view.set := by
  have hi0 : (i 0).val < 512 := (i 0).isLt
  have hi1 : (i 1).val < 500 := (i 1).isLt
  obtain ⟨t, ht⟩ := mm_index_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mm_mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 500 ≤ (i 1).val ∧ (i 1).val < win0_2.index t (1 : Fin 2) * 500 + 500; omega

/-- The output array at region 0's exit is the product of the two arrays as the region finds them. -/
theorem mm_final (c : Dev nD) :
    (dat0 (V1 m ρ) c).arrAt 2 cfg0.N = prodArr (V1 m ρ c main_arg0) (V1 m ρ c main_v2) :=
  (dat0 (V1 m ρ) c).arrAt_eq_of_cover 2 (prodArr (V1 m ρ c main_arg0) (V1 m ρ c main_v2))
    (fun t _ => mm_flushed_eq m ρ c t) mm_cover

/-- The product at an entry. -/
theorem prodArr_apply (a : S512x1024.Idx → EReal) (b : S1024x500.Idx → EReal) (r : Fin 512) (q : Fin 500) :
    prodArr a b (ix2 r q) = ∑ f : Fin 1024, a (ix2 r f) * b (ix2 f q) := rfl

/-- The array region 0 leaves: the product of the launched left operand by the regrouped right operand. -/
theorem V2_main_v3_arr (c : Dev nD) :
    V2 m ρ c main_v3 = prodArr (m ((c : Thread nD τ).loc main_arg0)) (V1 m ρ c main_v2) :=
  ((W2_arr m ρ c 2).trans (mm_final m ρ c)).trans (by rw [V1_main_arg0 m ρ c])

/-- Entry (r, q) of the array region 0 leaves: row r of the launched left operand against column q of the regrouped
    right operand. -/
theorem V2_main_v3' (c : Dev nD) (r : Fin 512) (q : Fin 500) :
    V2 m ρ c main_v3 (ix2 r q) = prodArr (m ((c : Thread nD τ).loc main_arg0)) (V1 m ρ c main_v2) (ix2 r q) :=
  congrFun (V2_main_v3_arr m ρ c) _

/-- The product against a regrouped right operand, at position 100d + k of row r: when position 100d + k of each
    row of b' is column 5k + d of that row of b, this is the projection's entry (r, 5k + d) over b. -/
theorem prodArr_regrouped (a : S512x1024.Idx → EReal) (b b' : S1024x500.Idx → EReal) (r : Fin 512) (d : Fin 5) (k : Fin 100)
    (h : ∀ f : Fin 1024, b' (ix2 f ⟨d.val * 100 + k.val, by have := d.isLt; have := k.isLt; omega⟩) = b (ix2 f (Cert.Spec.col k d))) :
    prodArr a b' (ix2 r ⟨d.val * 100 + k.val, by have := d.isLt; have := k.isLt; omega⟩) = Cert.Spec.proj a b r k d := by
  rw [prodArr_apply]
  unfold Cert.Spec.proj
  exact Finset.sum_congr rfl fun f _ => by rw [h f]

/-- Entry (r, 100d + k) of the array region 0 leaves is the projection's entry (r, 5k + d). -/
theorem V2_main_v3 (c : Dev nD) (r : Fin 512) (d : Fin 5) (k : Fin 100) :
    V2 m ρ c main_v3 (ix2 r ⟨d.val * 100 + k.val, by have := d.isLt; have := k.isLt; omega⟩)
      = Cert.Spec.proj (m ((c : Thread nD τ).loc main_arg0)) (m ((c : Thread nD τ).loc main_arg1)) r k d :=
  (V2_main_v3' m ρ c r _).trans
    (prodArr_regrouped (m ((c : Thread nD τ).loc main_arg0)) (m ((c : Thread nD τ).loc main_arg1)) (V1 m ρ c main_v2) r d k
      (fun f => V1_main_v2 m ρ c f d k))

/-! ## The second host stretch: the product read as 512 x 5 x 100, and with the row axis moved last -/

/-- The 512 x 5 x 100 array as the stretch's reshape of what region 0 leaves. -/
theorem V3_main_v4_term (c : Dev nD) :
    (V3 m ρ c main_v4 : S512x5x100.Idx → EReal)
      = shapeCast S512x5x100 (V2 m ρ c main_v3 : S512x500.Idx → EReal) shapeCasts_S512x500_S512x5x100 := by
  dsimp only [V3, W3, hostOps1]; after_results; rfl

/-- The 5 x 100 x 512 array as the stretch's transpose of that reshape. -/
theorem V3_main_v5_term (c : Dev nD) :
    (V3 m ρ c main_v5 : S5x100x512.Idx → EReal)
      = transpose S5x100x512 [1, 2, 0]
          (shapeCast S512x5x100 (V2 m ρ c main_v3 : S512x500.Idx → EReal) shapeCasts_S512x500_S512x5x100)
          transposes_S512x5x100_S5x100x512_1_2_0 := by
  dsimp only [V3, W3, hostOps1]; after_results; rfl

/-- Entry (r, d, k) of the reshaped array is entry (r, 100d + k) of what region 0 leaves. -/
theorem V3_main_v4_eq_V2 (c : Dev nD) (r : Fin 512) (d : Fin 5) (k : Fin 100) :
    V3 m ρ c main_v4 (ix3 r d k)
      = V2 m ρ c main_v3 (ix2 r ⟨d.val * 100 + k.val, by have := d.isLt; have := k.isLt; omega⟩) := by
  have hd := d.isLt; have hk := k.isLt; have hr := r.isLt
  refine (congrFun (V3_main_v4_term m ρ c) _).trans ?_
  exact shapeCast_apply _ shapeCasts_S512x500_S512x5x100 (ix3 r d k) (ix2 r ⟨d.val * 100 + k.val, by omega⟩) (by
    rewrite [Shape.rowMajor_val_two, Shape.rowMajor_val_three]
    show r.val * 500 + (d.val * 100 + k.val) = (r.val * 5 + d.val) * 100 + k.val; omega)

/-- Entry (r, d, k) of the 512 x 5 x 100 array region 1 is entered with is the projection's entry (r, 5k + d). -/
theorem V3_main_v4 (c : Dev nD) (r : Fin 512) (d : Fin 5) (k : Fin 100) :
    V3 m ρ c main_v4 (ix3 r d k)
      = Cert.Spec.proj (m ((c : Thread nD τ).loc main_arg0)) (m ((c : Thread nD τ).loc main_arg1)) r k d :=
  (V3_main_v4_eq_V2 m ρ c r d k).trans (V2_main_v3 m ρ c r d k)

/-- Entry (d, k, r) of the 5 x 100 x 512 array region 1 is entered with is the projection's entry (r, 5k + d). -/
theorem V3_main_v5 (c : Dev nD) (d : Fin 5) (k : Fin 100) (r : Fin 512) :
    V3 m ρ c main_v5 (ix3 d k r)
      = Cert.Spec.proj (m ((c : Thread nD τ).loc main_arg0)) (m ((c : Thread nD τ).loc main_arg1)) r k d := by
  have hd := d.isLt; have hk := k.isLt; have hr := r.isLt
  refine (congrFun (V3_main_v5_term m ρ c) _).trans ?_
  refine (transpose_apply [1, 2, 0] _ transposes_S512x5x100_S5x100x512_1_2_0 (ix3 d k r) (ix3 r d k) (fun b => match b with
    | ⟨0, _⟩ => rfl
    | ⟨1, _⟩ => rfl
    | ⟨2, _⟩ => rfl)).trans ?_
  refine (shapeCast_apply _ shapeCasts_S512x500_S512x5x100 (ix3 r d k) (ix2 r ⟨d.val * 100 + k.val, by omega⟩) (by
    rewrite [Shape.rowMajor_val_two, Shape.rowMajor_val_three]
    show r.val * 500 + (d.val * 100 + k.val) = (r.val * 5 + d.val) * 100 + k.val; omega)).trans ?_
  exact V2_main_v3 m ρ c r d k

end Cert.KernelIdeal.Hand

end
-- ==== Proof.KI.PairValue.lean ====
/-
  The result array, as a value on the extended reals: region 1's final output array is the specification `G` of the
  two argument arrays.
  * A block of the row-tile window at point `t` is rows `128·(t / 4) + p` of the projection, a block of the
    other-row-tile window is rows `128·(t mod 4) + l`; region 1 is entered with the projection in both layouts.
  * One point adds to the accumulator, at row `p` and group `k`, the sum over the tile's 128 other rows of
    `exp (-dist)`; the four points of a row tile start from the reset accumulator, so after the fourth the
    accumulator holds `((0 + S₀) + S₁) + S₂) + S₃`, the sum over all 512 other rows: the feature.
  * The fourth point copies the accumulator to the output block, which is written back; the 4 written blocks tile
    the 512 × 100 array, so the array ends holding `G`.
-/
import proofs.«177038_j16552803959337_2_alg».proof.Proof.KI.PairPieces
import proofs.«177038_j16552803959337_2_alg».proof.Proof.KI.PairPayload
import proofs.«177038_j16552803959337_2_alg».proof.Proof.KI.ProjValue
import proofs.«177038_j16552803959337_2_alg».proof.Proof.KI.Boundary
import proofs.«177038_j16552803959337_2_alg».proof.Proof.SpecLaws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! ## The grid's index maps, and the rows a point's blocks hold -/

/-- The printed index maps over the 16 points: the row tile is `t / 4`, the other-row tile `t mod 4`. -/
theorem idx_facts1 : ∀ t : Fin cfg1.N, win1_0.index t (0 : Fin 3) = t.val / 4 ∧ win1_0.index t (1 : Fin 3) = 0 ∧ win1_0.index t (2 : Fin 3) = 0
    ∧ win1_1.index t (0 : Fin 3) = 0 ∧ win1_1.index t (1 : Fin 3) = 0 ∧ win1_1.index t (2 : Fin 3) = t.val % 4
    ∧ win1_2.index t (0 : Fin 2) = t.val / 4 ∧ win1_2.index t (1 : Fin 2) = 0 :=
  (by decide +kernel : ∀ t : Fin grid1.N, _)

/-- Row `128·(t / 4) + p`: row `p` of point `t`'s row tile. -/
def rowI (t : Fin cfg1.N) (p : Fin 128) : Fin 512 :=
  ⟨t.val / 4 * 128 + p.val, by have := t.isLt; have hN : cfg1.N = 16 := N_1; have := p.isLt; omega⟩
/-- Row `128·(t mod 4) + l`: row `l` of point `t`'s other-row tile. -/
def rowJ (t : Fin cfg1.N) (l : Fin 128) : Fin 512 :=
  ⟨t.val % 4 * 128 + l.val, by have := l.isLt; omega⟩

theorem rowI_congr {t t' : Fin cfg1.N} (e : t.val / 4 = t'.val / 4) (p : Fin 128) : rowI t p = rowI t' p :=
  Fin.ext (by show t.val / 4 * 128 + p.val = t'.val / 4 * 128 + p.val; rw [e])
theorem rowJ_eq_tileRow (t : Fin cfg1.N) (r : Fin 4) (e : t.val % 4 = r.val) (l : Fin 128) : rowJ t l = Cert.Spec.tileRow r l :=
  Fin.ext (by show t.val % 4 * 128 + l.val = r.val * 128 + l.val; rw [e])

section
variable (V : (c : Dev nD) → (b : Ref sig .tc) → Buf (Elt Ideal) ((c : Thread nD τ).loc b))

/-- The row-tile window's block at point `t`, read at an index: the array's rows `rowI t ·`. -/
theorem x0_at (c : Dev nD) (t : Fin cfg1.N) (p : Fin 128) (d : Fin 5) (k : Fin 100) :
    iblk1 V c 0 t (ix3 p d k) = V c main_v4 (ix3 (rowI t p) d k) := by
  obtain ⟨e0, e1, e2, -⟩ := idx_facts1 t
  show V c main_v4 (((cfg1.win 0).blk t).view.emb (ix3 p d k)) = V c main_v4 (ix3 (rowI t p) d k)
  refine congrArg _ ?_
  funext a; apply Fin.ext
  match a with
  | ⟨0, _⟩ => show win1_0.index t (0 : Fin 3) * 128 + 1 * p.val = t.val / 4 * 128 + p.val; omega
  | ⟨1, _⟩ => show win1_0.index t (1 : Fin 3) * 5 + 1 * d.val = d.val; omega
  | ⟨2, _⟩ => show win1_0.index t (2 : Fin 3) * 100 + 1 * k.val = k.val; omega

/-- The other-row-tile window's block at point `t`, read at an index: the array's rows `rowJ t ·`. -/
theorem x1_at (c : Dev nD) (t : Fin cfg1.N) (d : Fin 5) (k : Fin 100) (l : Fin 128) :
    iblk1 V c 1 t (ix3 d k l) = V c main_v5 (ix3 d k (rowJ t l)) := by
  obtain ⟨-, -, -, e3, e4, e5, -⟩ := idx_facts1 t
  show V c main_v5 (((cfg1.win 1).blk t).view.emb (ix3 d k l)) = V c main_v5 (ix3 d k (rowJ t l))
  refine congrArg _ ?_
  funext a; apply Fin.ext
  match a with
  | ⟨0, _⟩ => show win1_1.index t (0 : Fin 3) * 5 + 1 * d.val = d.val; omega
  | ⟨1, _⟩ => show win1_1.index t (1 : Fin 3) * 100 + 1 * k.val = k.val; omega
  | ⟨2, _⟩ => show win1_1.index t (2 : Fin 3) * 128 + 1 * l.val = t.val % 4 * 128 + l.val; omega

/-- The accumulator at a position depends on the position only. -/
theorem accAt_congr (c : Dev nD) {n n' : ℕ} (e : n = n') (h : n < cfg1.N) (h' : n' < cfg1.N) :
    accAt V c n h = accAt V c n' h' := by subst e; rfl

end

variable (m : (ℓ : Loc nD τ sig) → Buf (Elt Ideal) ℓ) (ρ : Dev nD → PrngReg)

/-- `exp (-dist i j k)`: what row `j` contributes to row `i`'s feature in group `k`. -/
def contrib (c : Dev nD) (i : Fin 512) (k : Fin 100) (j : Fin 512) : EReal :=
  Ideal.exp (-(Cert.Spec.dist (m ((c : Thread nD τ).loc main_arg0)) (m ((c : Thread nD τ).loc main_arg1)) i j k))

/-! ## One point's update, and the four points of a row tile -/

/-- One point adds, at row `p` and group `k`, the contributions of its tile's 128 other rows. -/
theorem acc_step (c : Dev nD) (t : Fin cfg1.N) (s : Vec Ideal S128x100 .f32) (p : Fin 128) (k : Fin 100) :
    accNext (iblk1 (V3 m ρ) c 0 t) (iblk1 (V3 m ρ) c 1 t) s (ix2 p k)
      = s (ix2 p k) + ∑ l : Fin 128, contrib m c (rowI t p) k (rowJ t l) := by
  rw [accNext_apply]
  refine congrArg _ (Finset.sum_congr rfl fun l _ => ?_)
  unfold contrib Cert.Spec.dist
  refine congrArg (fun z => Ideal.exp (-z)) (Finset.sum_congr rfl fun d _ => ?_)
  rw [x0_at, x1_at, V3_main_v4, V3_main_v5]

/-- After a point with `j = 0`: the reset accumulator plus that point's contributions. -/
theorem acc_first (c : Dev nD) (t : Fin cfg1.N) (h0 : t.val % 4 = 0) (p : Fin 128) (k : Fin 100) :
    accAt (V3 m ρ) c t.val t.isLt (ix2 p k) = 0 + ∑ l : Fin 128, contrib m c (rowI t p) k (rowJ t l) := by
  rw [accAt_A (V3 m ρ) c t h0 (by omega), soutA_eq]
  refine (acc_step m ρ c t _ p k).trans ?_
  rw [pay2_apply]

/-- After any other point: what the point before left plus this point's contributions. -/
theorem acc_succ (c : Dev nD) (t t' : Fin cfg1.N) (ht' : t'.val + 1 = t.val) (h0 : ¬t.val % 4 = 0) (p : Fin 128) (k : Fin 100) :
    accAt (V3 m ρ) c t.val t.isLt (ix2 p k)
      = accAt (V3 m ρ) c t'.val t'.isLt (ix2 p k) + ∑ l : Fin 128, contrib m c (rowI t p) k (rowJ t l) := by
  have hprev : accAt (V3 m ρ) c (t.val - 1) (Nat.lt_of_le_of_lt (Nat.sub_le _ _) t.isLt) = accAt (V3 m ρ) c t'.val t'.isLt :=
    accAt_congr (V3 m ρ) c (by omega) _ _
  by_cases h1 : t.val % 4 = 3
  · rw [accAt_C (V3 m ρ) c t h0 h1, soutC_eq, hprev]
    exact acc_step m ρ c t _ p k
  · rw [accAt_B (V3 m ρ) c t h0 h1, soutB_eq, hprev]
    exact acc_step m ρ c t _ p k

/-- The output block after a point with `j = 3`, at row `p` and group `k`: the feature of row `rowI t p`. -/
theorem out_flush (c : Dev nD) (t : Fin cfg1.N) (h1 : t.val % 4 = 3) (p : Fin 128) (k : Fin 100) :
    outAt (V3 m ρ) c t (ix2 p k)
      = Cert.Spec.feat (m ((c : Thread nD τ).loc main_arg0)) (m ((c : Thread nD τ).loc main_arg1)) (rowI t p) k := by
  have hN : cfg1.N = 16 := N_1
  have ht := t.isLt
  obtain ⟨t2, ht2⟩ : ∃ t2 : Fin cfg1.N, t2.val + 1 = t.val := ⟨⟨t.val - 1, by omega⟩, by show t.val - 1 + 1 = t.val; omega⟩
  obtain ⟨t1, ht1⟩ : ∃ t1 : Fin cfg1.N, t1.val + 1 = t2.val := ⟨⟨t2.val - 1, by omega⟩, by show t2.val - 1 + 1 = t2.val; omega⟩
  obtain ⟨t0, ht0⟩ : ∃ t0 : Fin cfg1.N, t0.val + 1 = t1.val := ⟨⟨t1.val - 1, by omega⟩, by show t1.val - 1 + 1 = t1.val; omega⟩
  -- the copied accumulator is the accumulator after this point
  have hout : outAt (V3 m ρ) c t = accAt (V3 m ρ) c t.val t.isLt := by
    rw [outAt_C (V3 m ρ) c t (by omega) h1, outC_eq, accAt_C (V3 m ρ) c t (by omega) h1, soutC_eq]
  rw [hout, acc_succ m ρ c t t2 ht2 (by omega) p k, acc_succ m ρ c t2 t1 ht1 (by omega) p k,
    acc_succ m ρ c t1 t0 ht0 (by omega) p k, acc_first m ρ c t0 (by omega) p k]
  rw [rowI_congr (t := t2) (t' := t) (by omega) p, rowI_congr (t := t1) (t' := t) (by omega) p, rowI_congr (t := t0) (t' := t) (by omega) p]
  simp only [rowJ_eq_tileRow t 3 (by show t.val % 4 = 3; exact h1), rowJ_eq_tileRow t2 2 (by show t2.val % 4 = 2; omega),
    rowJ_eq_tileRow t1 1 (by show t1.val % 4 = 1; omega), rowJ_eq_tileRow t0 0 (by show t0.val % 4 = 0; omega)]
  exact Cert.Spec.sum_tiles_acc (contrib m c (rowI t p) k)

/-! ## From the written blocks to the array -/

/-- What a point with `j = 3` writes back is its block of `G`. -/
theorem flushed1_eq (c : Dev nD) (t : Fin cfg1.N) (hf : (cfg1.win 2).flush t = true) :
    (dat1 (V3 m ρ) c).flushed 2 t = ((cfg1.win 2).blk t).view.read (Elt Ideal)
      (Cert.Spec.G (m ((c : Thread nD τ).loc main_arg0)) (m ((c : Thread nD τ).loc main_arg1))) := by
  have h1 : t.val % 4 = 3 := (flush1_2 t).mp hf
  obtain ⟨-, -, -, -, -, -, e6, e7⟩ := idx_facts1 t
  show (cfg1.win 2).cut (grid1.coords t) ((dat1 (V3 m ρ) c).after 2 t) = _
  rw [after1_2]
  funext j
  obtain ⟨p, k, rfl⟩ : ∃ (p : Fin 128) (k : Fin 100), j = ix2 p k := ⟨j 0, j 1, eq_ix2 j⟩
  show outAt (V3 m ρ) c t (ix2 p k) = Cert.Spec.G _ _ (((cfg1.win 2).blk t).view.emb (ix2 p k))
  have hemb : ((cfg1.win 2).blk t).view.emb (ix2 p k) = ix2 (rowI t p) k := by
    funext a; apply Fin.ext
    match a with
    | ⟨0, _⟩ => show win1_2.index t (0 : Fin 2) * 128 + 1 * p.val = t.val / 4 * 128 + p.val; omega
    | ⟨1, _⟩ => show win1_2.index t (1 : Fin 2) * 100 + 1 * k.val = k.val; omega
  rw [hemb, Cert.Spec.G_apply]
  exact out_flush m ρ c t h1 p k

/-- An index of the array is in point `t`'s block iff each coordinate is in the block's range. -/
theorem mem_blk1 (t : Fin cfg1.N) (i : S512x100.Idx) :
    i ∈ ((cfg1.win 2).blk t).view.set ↔ ∀ a : Fin 2, win1_2.index t a * S128x100.size a ≤ (i a).val ∧ (i a).val < win1_2.index t a * S128x100.size a + S128x100.size a := by
  show i ∈ ((View.whole main_v6).slice (win1_2.rect t)).set ↔ _
  rw [View.set_slice_whole, Rect.mem_set_unit]
  exact Iff.rfl

/-- Every index is in the block written back by the last point of its row tile. -/
theorem cover1 (i : S512x100.Idx) :
    ∃ t : Fin cfg1.N, (cfg1.win 2).flush t = true ∧ i ∈ ((cfg1.win 2).blk t).view.set := by
  have hi0 : (i 0).val < 512 := (i 0).isLt
  have hi1 : (i 1).val < 100 := (i 1).isLt
  have hN : cfg1.N = 16 := N_1
  obtain ⟨t, htv⟩ : ∃ t : Fin cfg1.N, t.val = (i 0).val / 128 * 4 + 3 := ⟨⟨(i 0).val / 128 * 4 + 3, by omega⟩, rfl⟩
  refine ⟨t, (flush1_2 t).mpr (by omega), ?_⟩
  rw [mem_blk1]
  obtain ⟨-, -, -, -, -, -, e6, e7⟩ := idx_facts1 t
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 100 ≤ (i 1).val ∧ (i 1).val < win1_2.index t (1 : Fin 2) * 100 + 100; omega

/-- THE RESULT: region 1's final output array is `G` of the two argument arrays. -/
theorem final1 (c : Dev nD) :
    (dat1 (V3 m ρ) c).arrAt 2 cfg1.N
      = Cert.Spec.G (m ((c : Thread nD τ).loc main_arg0)) (m ((c : Thread nD τ).loc main_arg1)) :=
  (dat1 (V3 m ρ) c).arrAt_eq_of_cover 2 _ (fun t hf => flushed1_eq m ρ c t hf) cover1

end Cert.KernelIdeal.Hand

end
-- ==== Proof.RefValue.lean ====
/-
  The reference's result is the specification.

  The reference multiplies the two matrices, reads the 500 columns of the product as 100 groups of 5, forms for
  every pair of rows `(i, j)`, every group `k` and every feature `d` the difference of the two rows' entries,
  takes its absolute value, sums over `d` (from 0), negates, exponentiates and sums over `j` (from 0). Reading
  each operation at an index turns the result at `(i, k)` into `∑ j, exp (-(∑ d, |proj i k d - proj j k d|))`,
  the two zero initial values dropping out; the index arithmetic is that of the reshape: position
  `(i·100 + k)·5 + d` of the 512 × 100 × 5 array is entry `(i, 5k + d)` of the 512 × 500 product.
-/
import proofs.«177038_j16552803959337_2_alg».proof.Proof.Spec
import proofs.«177038_j16552803959337_2_alg».proof.Proof.Gen.ReferenceIdeal.Read

noncomputable section

namespace Cert.RefValue

open Cert.ReferenceIdeal Cert.ReferenceIdeal.Read Cert.Spec
open Idealize.ShloMosaic Idealize.ShloMosaic.ValueIdx
open scoped BigOperators

variable (a : (⟨S512x1024, .f32⟩ : BufTy).Contents (Elt Ideal)) (b : (⟨S1024x500, .f32⟩ : BufTy).Contents (Elt Ideal))

/-- Entry `(r, c)` of the product is the sum over the contracted positions. -/
theorem v0_at (r : Fin 512) (c : Fin 500) :
    val_main_v0 (F := Ideal) a b (ix2 r c) = ∑ f : Fin 1024, a (ix2 r f) * b (ix2 f c) := by
  rw [val_main_v0_apply]
  refine Finset.sum_congr rfl fun f _ => ?_
  have el : lidx_main_v0 (ix2 r c) f = ix2 r f :=
    funext fun x => Fin.ext (by match x with | ⟨0, _⟩ => rfl | ⟨1, _⟩ => rfl)
  have er : ridx_main_v0 (ix2 r c) f = ix2 f c :=
    funext fun x => Fin.ext (by match x with | ⟨0, _⟩ => rfl | ⟨1, _⟩ => rfl)
  rw [el, er]

/-- Entry `(r, k, d)` of the reshaped product is entry `(r, 5k + d)` of the product. -/
theorem v1_at (r : Fin 512) (k : Fin 100) (d : Fin 5) :
    val_main_v1 (F := Ideal) a b (ix3 r k d) = proj a b r k d := by
  have hr := r.isLt; have hk := k.isLt; have hd := d.isLt
  have e : idx_main_v1 (ix3 r k d) = ix2 r (col k d) :=
    funext fun x => Fin.ext (by
      match x with
      | ⟨0, _⟩ => show ((r.val * 100 + k.val) * 5 + d.val) / 500 = r.val; omega
      | ⟨1, _⟩ => show ((r.val * 100 + k.val) * 5 + d.val) % 500 = k.val * 5 + d.val; omega)
  rw [val_main_v1_apply, e, v0_at]
  rfl

/-- The absolute difference at `(i, k, d, j)`. -/
theorem v8_at (i : Fin 512) (k : Fin 100) (d : Fin 5) (j : Fin 512) :
    val_main_v8 (F := Ideal) a b (ix4 i k d j) = eabs (proj a b i k d - proj a b j k d) := by
  have e5 : idx_main_v2 (idx_main_v5 (ix4 i k d j)) = ix3 i k d :=
    funext fun x => Fin.ext (by match x with | ⟨0, _⟩ => rfl | ⟨1, _⟩ => rfl | ⟨2, _⟩ => rfl)
  have e6 : idx_main_v3 (idx_main_v4 (idx_main_v6 (ix4 i k d j))) = ix3 j k d :=
    funext fun x => Fin.ext (by match x with | ⟨0, _⟩ => rfl | ⟨1, _⟩ => rfl | ⟨2, _⟩ => rfl)
  rw [val_main_v8_apply, val_main_v7_apply, val_main_v5_apply, val_main_v2_apply, e5, v1_at,
    val_main_v6_apply, val_main_v4_apply, val_main_v3_apply, e6, v1_at]
  rfl

/-- The distance at `(i, k, j)`: the sum over the 5 features, from the initial value 0. -/
theorem v9_at (i : Fin 512) (k : Fin 100) (j : Fin 512) :
    val_main_v9 (F := Ideal) a b (ix3 i k j) = dist a b i j k := by
  rw [val_main_v9_apply, val_main_cst_apply, Ideal.ofBits_def, Ideal.ofBits_zero_f32, zero_add]
  refine Finset.sum_congr rfl fun d _ => ?_
  have e : idx_main_v9 (ix3 i k j) d = ix4 i k d j :=
    funext fun x => Fin.ext (by match x with | ⟨0, _⟩ => rfl | ⟨1, _⟩ => rfl | ⟨2, _⟩ => rfl | ⟨3, _⟩ => rfl)
  rw [e, v8_at]

/-- The reference's result is `G`. -/
theorem ref_eq (a : (⟨S512x1024, .f32⟩ : BufTy).Contents (Elt Ideal)) (b : (⟨S1024x500, .f32⟩ : BufTy).Contents (Elt Ideal)) :
    val_main_v12 (F := Ideal) a b = G a b := by
  funext i
  obtain ⟨r, k, rfl⟩ : ∃ (r : Fin 512) (k : Fin 100), i = ix2 r k := ⟨i 0, i 1, eq_ix2 i⟩
  rw [G_apply, val_main_v12_apply, val_main_cst_0_apply, Ideal.ofBits_def, Ideal.ofBits_zero_f32, zero_add]
  unfold feat
  refine Finset.sum_congr rfl fun j _ => ?_
  have e : idx_main_v12 (ix2 r k) j = ix3 r k j :=
    funext fun x => Fin.ext (by match x with | ⟨0, _⟩ => rfl | ⟨1, _⟩ => rfl | ⟨2, _⟩ => rfl)
  rw [e, val_main_v11_apply, val_main_v10_apply, v9_at, Ideal.hostUnary_exp_def, Ideal.hostNegf_def, Ideal.negf_def]

end Cert.RefValue

end
-- ==== Proof.lean ====
/-
  Minibatch discrimination: for a batch of 512 rows, project each row by a 1024 × 500 weight into 100 groups of 5
  features; for every row `i` and group `k` sum over all rows `j` the quantity `exp (-‖x[i,k,·] - x[j,k,·]‖₁)`.

  The kernel program does it in two pallas_calls: the projection, by a matrix product against the weight with its
  columns regrouped feature-major (two row blocks of 256; the inputs rounded to bf16 on the way in, which at the
  ideal values is the identity), and the pairwise stage on a 4 × 4 grid of 128-row tiles, accumulating over the
  other-row tiles in a scratch buffer that is reset at the first tile and copied out at the last. The reference is
  the direct jnp expression. Over the extended reals both are the one function `Cert.Spec.G` of the two arguments:
  * the reference by reading its operations one at a time (`Cert.RefValue.ref_eq`);
  * the kernel program by its run (`run_all`: every weakly fair execution terminates without a fault, both
    arguments end as launched, the result ends at the pairwise stage's final output array) and by that array's
    value (`final1`): the regrouped columns undo the projection's reshape, the distance with its sign folded in is
    the negated sum of the five non-negative absolute differences, and the four tiles' sums are the sum over all rows.
  Only commutativity and associativity of the sum, and a negation distributed over non-negative terms, are used, so the
  precondition (finite inputs) is never opened.
  The frames of the two kernel programs are the same run read at the arguments only, at the word-level values and
  at the ideal values; the reference's frame is its run; the idealization rewrote nothing, so `preserves` is trivial.
-/
import proofs.«177038_j16552803959337_2_alg».proof.Defs
import proofs.«177038_j16552803959337_2_alg».proof.Proof.Gen.Kernel
import proofs.«177038_j16552803959337_2_alg».proof.Proof.Gen.KernelIdeal
import proofs.«177038_j16552803959337_2_alg».proof.Proof.Gen.ReferenceIdeal
import proofs.«177038_j16552803959337_2_alg».proof.Proof.Gen.Pre_finite_inputs
import proofs.«177038_j16552803959337_2_alg».proof.Proof.Gen.ReferenceIdeal.Read
import proofs.«177038_j16552803959337_2_alg».proof.Proof.K.Run
import proofs.«177038_j16552803959337_2_alg».proof.Proof.KI.Run
import proofs.«177038_j16552803959337_2_alg».proof.Proof.KI.PairValue
import proofs.«177038_j16552803959337_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ =>
  (θ_run Cert.Kernel.defs _ _).mono (fun _ h c => ⟨(h c).2.1, (h c).2.2⟩) (Cert.Kernel.Hand.run_all (F := Bits) m ρ)

/-- So does the idealized kernel program. -/
theorem frame_ki : Cert.frame_KernelIdeal := fun m ρ _ =>
  (θ_run Cert.KernelIdeal.defs _ _).mono (fun _ h c => ⟨(h c).2.1, (h c).2.2⟩) (Cert.KernelIdeal.Hand.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values, from memories that agree on the arguments, both programs end with the result array at
    `G` of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.final1 m ρ c), (h c).2.1, (h c).2.2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
